-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1024 : Shape := ⟨3, ![64, 256, 1024]⟩
abbrev S128x1024 : Shape := ⟨2, ![128, 1024]⟩
abbrev S64x256 : Shape := ⟨2, ![64, 256]⟩
abbrev S_ : Shape := ⟨0, ![]⟩

class Facts : Prop where
  bcast_S_S64x256x1024 : S_.BroadcastsInDim S64x256x1024 (![] : Fin 0 → Fin S64x256x1024.rank)
  reducesTo_S64x256x1024_S_d0_1_2 : S64x256x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S64x256x1024 .f32) (main_arg1 : FVec F S128x1024 .f32) (main_arg2 : IVec S64x256 32) : IVec S_ 1 :=
  let main_v0 : FVec F S64x256x1024 .f32 := Host.absf main_arg0
  let main_cst : FVec F S_ .f32 := constant S_ .f32 0x7F800000#32
  let main_v1 : FVec F S64x256x1024 .f32 := broadcastInDim S64x256x1024 ![] bcast_S_S64x256x1024 main_cst
  let main_v2 : IVec S64x256x1024 1 := cmpf .olt main_v0 main_v1
  let main_c : IVec S_ 1 := constantI S_ 1 1#1
  let main_v3 : IVec S_ 1 := (fun x v => Host.reduce IntOp.andi x v reducesTo_S64x256x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S64x256x1024 : Shape := ⟨3, ![64, 256, 1024]⟩
abbrev S128x1024 : Shape := ⟨2, ![128, 1024]⟩
abbrev S64x256 : Shape := ⟨2, ![64, 256]⟩
abbrev S64x1 : Shape := ⟨2, ![64, 1]⟩
abbrev S8x256x1024 : Shape := ⟨3, ![8, 256, 1024]⟩
abbrev S8x256 : Shape := ⟨2, ![8, 256]⟩
abbrev S8x1 : Shape := ⟨2, ![8, 1]⟩
abbrev S128 : Shape := ⟨1, ![128]⟩
abbrev S8x256x256 : Shape := ⟨3, ![8, 256, 256]⟩
abbrev S8x256x1 : Shape := ⟨3, ![8, 256, 1]⟩
abbrev S8x1x256 : Shape := ⟨3, ![8, 1, 256]⟩
abbrev S8 : Shape := ⟨1, ![8]⟩
abbrev S2048x1024 : Shape := ⟨2, ![2048, 1024]⟩
abbrev S2048x128 : Shape := ⟨2, ![2048, 128]⟩
abbrev S8x256x128 : Shape := ⟨3, ![8, 256, 128]⟩
abbrev S1x1x128 : Shape := ⟨3, ![1, 1, 128]⟩
abbrev S8x128 : Shape := ⟨2, ![8, 128]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S64x256x1024, .f32⟩
  | .hbm, ⟨1, _⟩ => ⟨S128x1024, .f32⟩
  | .hbm, ⟨2, _⟩ => ⟨S64x256, .i32⟩
  | .hbm, ⟨3, _⟩ => ⟨S64x256, .f32⟩
  | .hbm, ⟨4, _⟩ => ⟨S64x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8x256x1024, .f32⟩
  | .local _ .vmem, ⟨1, _⟩ => ⟨S8x256x1024, .f32⟩
  | .local _ .vmem, ⟨2, _⟩ => ⟨S128x1024, .f32⟩
  | .local _ .vmem, ⟨3, _⟩ => ⟨S8x256, .f32⟩
  | .local _ .vmem, ⟨4, _⟩ => ⟨S8x256, .f32⟩
  | .local _ .vmem, ⟨5, _⟩ => ⟨S8x1, .f32⟩
  | .local _ .vmem, ⟨6, _⟩ => ⟨S8x1, .f32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x256x1024_S8x256x1024_0_0_0 : ∀ a, (![0, 0, 0] : Fin 3 → Nat) a + S8x256x1024.size a ≤ S8x256x1024.size a
  h_S8x256x1024 : 0 < S8x256x1024.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  reduces_S8x256x1024_S8x256 : S8x256x1024.Reduces [2] S8x256
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  reduces_S128x1024_S128 : S128x1024.Reduces [1] S128
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  natLt_1_32 : 1 < 32
  reduces_S8x256x256_S8x256 : S8x256x256.Reduces [2] S8x256
  reduces_S8x256_S8 : S8x256.Reduces [1] S8
  shapeCasts_S8_S8x1 : S8.ShapeCasts S8x1
  shapeCasts_S8x256x1024_S2048x1024 : S8x256x1024.ShapeCasts S2048x1024
  shapeCasts_S2048x128_S8x256x128 : S2048x128.ShapeCasts S8x256x128
  shapeCasts_S128_S1x1x128 : S128.ShapeCasts S1x1x128
  broadcasts_S8x256x1_S8x256x128 : S8x256x1.Broadcasts S8x256x128
  broadcasts_S1x1x128_S8x256x128 : S1x1x128.Broadcasts S8x256x128
  reduces_S8x256x128_S8x128 : S8x256x128.Reduces [1] S8x128
  broadcasts_S8x1_S8x128 : S8x1.Broadcasts S8x128
  reduces_S8x128_S8 : S8x128.Reduces [1] S8
  iota_S8x128_d1_w32 : S8x128.Iotas .tc 32 [1]
  iota_S8x128_d0_w32 : S8x128.Iotas .tc 32 [0]
  inb_S8x1_S8x1_0_0 : ∀ a, (![0, 0] : Fin 2 → Nat) a + S8x1.size a ≤ S8x1.size a
  h_S8x1 : 0 < S8x1.numel
  reducesTo_S64x1_S_d0_1 : S64x1.ReducesTo [0, 1] S_
  h_S_ : 0 < S_.numel
  dot_S8x256x1024_S8x256x1024_S8x256x256_2_2_1_1_0_0_wf : DotDims.WF S8x256x1024 S8x256x1024 S8x256x256 [2] [2] [1] [1] [0] [0]
  dot_S2048x1024_S128x1024_S2048x128_1_1_0_0_n_n_wf : DotDims.WF S2048x1024 S128x1024 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S64x256x1024.size a
  hwx0_0 : ∀ i : grid0.Coords, EltTy.bits .f32 = 32 ∨ (Rect.block (s := S64x256x1024) S8x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S64x256.size a
  hwx0_2 : ∀ i : grid0.Coords, EltTy.bits .f32 = 32 ∨ (Rect.block (s := S64x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S64x1.size a
  hwx0_3 : ∀ i : grid0.Coords, EltTy.bits .f32 = 32 ∨ (Rect.block (s := S64x1) S8x1.size (cc0_transform_3 i) (hinb0_3 i)).WholeWords (EltTy.packing .f32)

variable [Facts₀]

def dot_S8x256x1024_S8x256x1024_S8x256x256_2_2_1_1_0_0 : DotDims S8x256x1024 S8x256x1024 S8x256x256 where
  lhsContracting := [2]
  rhsContracting := [2]
  lhsNonContracting := [1]
  rhsNonContracting := [1]
  lhsBatch := [0]
  rhsBatch := [0]
  wf := dot_S8x256x1024_S8x256x1024_S8x256x256_2_2_1_1_0_0_wf
def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf

abbrev win0_0 : Pipeline.Window sig grid0 :=
  Pipeline.Window.ofSpec (Memref.whole main_arg0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x256x1024 : Shape := ⟨3, ![64, 256, 1024]⟩
abbrev S128x1024 : Shape := ⟨2, ![128, 1024]⟩
abbrev S64x256 : Shape := ⟨2, ![64, 256]⟩
abbrev S_ : Shape := ⟨0, ![]⟩
abbrev S128 : Shape := ⟨1, ![128]⟩
abbrev S128x64x256 : Shape := ⟨3, ![128, 64, 256]⟩
abbrev S64x128x256 : Shape := ⟨3, ![64, 128, 256]⟩
abbrev S64x1x256 : Shape := ⟨3, ![64, 1, 256]⟩
abbrev S1x128x1 : Shape := ⟨3, ![1, 128, 1]⟩
abbrev S64 : Shape := ⟨1, ![64]⟩
abbrev S64x128 : Shape := ⟨2, ![64, 128]⟩
abbrev S64x1 : Shape := ⟨2, ![64, 1]⟩
abbrev S64x256x256 : Shape := ⟨3, ![64, 256, 256]⟩
abbrev S64x256x1 : Shape := ⟨3, ![64, 256, 1]⟩
abbrev S64x2 : Shape := ⟨2, ![64, 2]⟩

abbrev nBuf : Space → Nat
  | .hbm => 141
  | .vmem => 0
  | .smem => 0
  | _ => 0

abbrev hbmTy0_0 (i : Nat) : BufTy := match i % 128 with
  | 0 => ⟨S64x256x1024, .f32⟩
  | 1 => ⟨S128x1024, .f32⟩
  | 2 => ⟨S64x256, .i32⟩
  | 3 => ⟨S64x256, .f32⟩
  | 4 => ⟨S64x256x1024, .f32⟩
  | 5 => ⟨S_, .f32⟩
  | 6 => ⟨S64x256, .f32⟩
  | 7 => ⟨S128x1024, .f32⟩
  | 8 => ⟨S_, .f32⟩
  | 9 => ⟨S128, .f32⟩
  | 10 => ⟨S128x64x256, .f32⟩
  | 11 => ⟨S64x128x256, .f32⟩
  | 12 => ⟨S64x1x256, .f32⟩
  | 13 => ⟨S1x128x1, .f32⟩
  | 14 => ⟨S64x128x256, .f32⟩
  | 15 => ⟨S64x128x256, .f32⟩
  | 16 => ⟨S64x128x256, .f32⟩
  | 17 => ⟨S_, .f32⟩
  | 18 => ⟨S64x128x256, .f32⟩
  | 19 => ⟨S64x128x256, .f32⟩
  | 20 => ⟨S64x128x256, .f32⟩
  | 21 => ⟨S_, .f32⟩
  | 22 => ⟨S64x128x256, .f32⟩
  | 23 => ⟨S64x128x256, .f32⟩
  | 24 => ⟨S_, .f32⟩
  | 25 => ⟨S64x128x256, .f32⟩
  | 26 => ⟨S64x128x256, .i1⟩
  | 27 => ⟨S_, .f32⟩
  | 28 => ⟨S_, .f32⟩
  | 29 => ⟨S64x128x256, .f32⟩
  | 30 => ⟨S64x128x256, .f32⟩
  | 31 => ⟨S64x128x256, .f32⟩
  | 32 => ⟨S64x128x256, .f32⟩
  | 33 => ⟨S64x128x256, .f32⟩
  | 34 => ⟨S64x1x256, .f32⟩
  | 35 => ⟨S64x128x256, .f32⟩
  | 36 => ⟨S64x128x256, .f32⟩
  | 37 => ⟨S_, .f32⟩
  | 38 => ⟨S64, .f32⟩
  | 39 => ⟨S_, .f32⟩
  | 40 => ⟨S_, .f32⟩
  | 41 => ⟨S64, .f32⟩
  | 42 => ⟨S64, .f32⟩
  | 43 => ⟨S_, .f32⟩
  | 44 => ⟨S64x128, .f32⟩
  | 45 => ⟨S64x1, .f32⟩
  | 46 => ⟨S64x128, .f32⟩
  | 47 => ⟨S64x128, .f32⟩
  | 48 => ⟨S64x256x1024, .f32⟩
  | 49 => ⟨S_, .f32⟩
  | 50 => ⟨S64x256, .f32⟩
  | 51 => ⟨S64x256x256, .f32⟩
  | 52 => ⟨S64x256x1, .f32⟩
  | 53 => ⟨S64x1x256, .f32⟩
  | 54 => ⟨S64x256x256, .f32⟩
  | 55 => ⟨S64x256x256, .f32⟩
  | 56 => ⟨S64x256x256, .f32⟩
  | 57 => ⟨S_, .f32⟩
  | 58 => ⟨S64x256x256, .f32⟩
  | 59 => ⟨S64x256x256, .f32⟩
  | 60 => ⟨S64x256x256, .f32⟩
  | 61 => ⟨S_, .f32⟩
  | 62 => ⟨S64x256x256, .f32⟩
  | 63 => ⟨S64x256x256, .f32⟩
  | 64 => ⟨S_, .f32⟩
  | 65 => ⟨S64x256x256, .f32⟩
  | 66 => ⟨S64x256x256, .i1⟩
  | 67 => ⟨S_, .f32⟩
  | 68 => ⟨S_, .f32⟩
  | 69 => ⟨S64x256x256, .f32⟩
  | 70 => ⟨S64x256x256, .f32⟩
  | 71 => ⟨S64x256x256, .f32⟩
  | 72 => ⟨S64x256x256, .f32⟩
  | 73 => ⟨S64x256x256, .f32⟩
  | 74 => ⟨S64x256x1, .f32⟩
  | 75 => ⟨S64x1x256, .f32⟩
  | 76 => ⟨S64x256x256, .f32⟩
  | 77 => ⟨S64x256x256, .f32⟩
  | 78 => ⟨S64x256x256, .f32⟩
  | 79 => ⟨S64x256x256, .f32⟩
  | 80 => ⟨S_, .f32⟩
  | 81 => ⟨S64, .f32⟩
  | 82 => ⟨S_, .f32⟩
  | 83 => ⟨S64, .f32⟩
  | 84 => ⟨S_, .f32⟩
  | 85 => ⟨S_, .f32⟩
  | 86 => ⟨S64, .f32⟩
  | 87 => ⟨S64, .f32⟩
  | 88 => ⟨S64, .f32⟩
  | 89 => ⟨S_, .f32⟩
  | 90 => ⟨S64x128, .f32⟩
  | 91 => ⟨S64x128, .f32⟩
  | 92 => ⟨S64x1, .f32⟩
  | 93 => ⟨S64x128, .f32⟩
  | 94 => ⟨S64x128, .f32⟩
  | 95 => ⟨S_, .f32⟩
  | 96 => ⟨S64x128, .f32⟩
  | 97 => ⟨S64x128, .f32⟩
  | 98 => ⟨S_, .f32⟩
  | 99 => ⟨S64x128, .f32⟩
  | 100 => ⟨S64x128, .f32⟩
  | 101 => ⟨S_, .f32⟩
  | 102 => ⟨S64, .f32⟩
  | 103 => ⟨S_, .f32⟩
  | 104 => ⟨S64, .f32⟩
  | 105 => ⟨S64, .f32⟩
  | 106 => ⟨S64x1, .f32⟩
  | 107 => ⟨S64x128, .f32⟩
  | 108 => ⟨S64x128, .f32⟩
  | 109 => ⟨S64x128, .f32⟩
  | 110 => ⟨S_, .f32⟩
  | 111 => ⟨S64, .f32⟩
  | 112 => ⟨S64x1, .f32⟩
  | 113 => ⟨S64x1, .f32⟩
  | 114 => ⟨S64x128, .f32⟩
  | 115 => ⟨S64x128, .f32⟩
  | 116 => ⟨S64, .i32⟩
  | 117 => ⟨S64, .i32⟩
  | 118 => ⟨S_, .i32⟩
  | 119 => ⟨S64, .i32⟩
  | 120 => ⟨S64, .i1⟩
  | 121 => ⟨S_, .i32⟩
  | 122 => ⟨S64, .i32⟩
  | 123 => ⟨S64, .i32⟩
  | 124 => ⟨S64, .i32⟩
  | 125 => ⟨S_, .i32⟩
  | 126 => ⟨S64, .i32⟩
  | 127 => ⟨S64, .i1⟩
  | _ => ⟨S64x256x1024, .f32⟩

abbrev hbmTy0_1 (i : Nat) : BufTy := match i % 128 with
  | 0 => ⟨S_, .i32⟩
  | 1 => ⟨S64, .i32⟩
  | 2 => ⟨S64, .i32⟩
  | 3 => ⟨S64, .i32⟩
  | 4 => ⟨S64x1, .i32⟩
  | 5 => ⟨S64x1, .i32⟩
  | 6 => ⟨S64x2, .i32⟩
  | 7 => ⟨S64, .f32⟩
  | 8 => ⟨S_, .f32⟩
  | 9 => ⟨S_, .f32⟩
  | 10 => ⟨S_, .f32⟩
  | 11 => ⟨S_, .f32⟩
  | 12 => ⟨S_, .f32⟩
  | _ => ⟨S64x256x1024, .f32⟩

abbrev hbmTy (i : Nat) : BufTy := match i / 128 with
  | 0 => hbmTy0_0 i
  | 1 => hbmTy0_1 i
  | _ => ⟨S64x256x1024, .f32⟩

abbrev bufTy : (tb : Table) → Fin (tcTables nBuf tb) → BufTy
  | .hbm, ⟨i, _⟩ => hbmTy i
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_call2_v0 : Ref sig .tc := ⟨.hbm, 68, rfl⟩
abbrev main_call2_v1 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_cst_14 : Ref sig .tc := ⟨.hbm, 82, rfl⟩
abbrev main_v58 : Ref sig .tc := ⟨.hbm, 83, rfl⟩
abbrev main_cst_15 : Ref sig .tc := ⟨.hbm, 84, rfl⟩
abbrev main_call3_v0 : Ref sig .tc := ⟨.hbm, 85, rfl⟩
abbrev main_call3_v1 : Ref sig .tc := ⟨.hbm, 86, rfl⟩
abbrev main_v59 : Ref sig .tc := ⟨.hbm, 87, rfl⟩
abbrev main_v60 : Ref sig .tc := ⟨.hbm, 88, rfl⟩
abbrev main_cst_16 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_cst_18 : Ref sig .tc := ⟨.hbm, 98, rfl⟩
abbrev main_v68 : Ref sig .tc := ⟨.hbm, 99, rfl⟩
abbrev main_v69 : Ref sig .tc := ⟨.hbm, 100, rfl⟩
abbrev main_call4_cst : Ref sig .tc := ⟨.hbm, 101, rfl⟩
abbrev main_call4_v0 : Ref sig .tc := ⟨.hbm, 102, rfl⟩
abbrev main_call4_cst_0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_v6 : Ref sig .tc := ⟨.hbm, 109, rfl⟩
abbrev main_call4_cst_1 : Ref sig .tc := ⟨.hbm, 110, rfl⟩
abbrev main_call4_v7 : Ref sig .tc := ⟨.hbm, 111, rfl⟩
abbrev main_call4_v8 : Ref sig .tc := ⟨.hbm, 112, rfl⟩
abbrev main_call4_v9 : Ref sig .tc := ⟨.hbm, 113, rfl⟩
abbrev main_call4_v10 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_c : Ref sig .tc := ⟨.hbm, 118, rfl⟩
abbrev main_v73 : Ref sig .tc := ⟨.hbm, 119, rfl⟩
abbrev main_v74 : Ref sig .tc := ⟨.hbm, 120, rfl⟩
abbrev main_c_19 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_c_20 : Ref sig .tc := ⟨.hbm, 125, rfl⟩
abbrev main_v78 : Ref sig .tc := ⟨.hbm, 126, rfl⟩
abbrev main_v79 : Ref sig .tc := ⟨.hbm, 127, rfl⟩
abbrev main_c_21 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_22 : Ref sig .tc := ⟨.hbm, 136, rfl⟩
abbrev main_v87 : Ref sig .tc := ⟨.hbm, 137, rfl⟩
abbrev main_cst_23 : Ref sig .tc := ⟨.hbm, 138, rfl⟩
abbrev main_v88 : Ref sig .tc := ⟨.hbm, 139, rfl⟩
abbrev main_v89 : Ref sig .tc := ⟨.hbm, 140, rfl⟩

abbrev nD : Nat := 1
abbrev τ : Topo := Topo.v7x

variable {F : FTy → Type} [FloatOps F]

class Facts₀ : Prop where
  reducesTo_S64x256x1024_S64x256_d2 : S64x256x1024.ReducesTo [2] S64x256
  h_S_ : 0 < S_.numel
  reducesTo_S128x1024_S128_d1 : S128x1024.ReducesTo [1] S128
  transposes_S128x64x256_S64x128x256_1_0_2 : S128x64x256.Transposes [1, 0, 2] S64x128x256
  bcast_S64x256_S64x1x256_0_2 : S64x256.BroadcastsInDim S64x1x256 (![0, 2] : Fin 2 → Fin S64x1x256.rank)
  bcast_S128_S1x128x1_1 : S128.BroadcastsInDim S1x128x1 (![1] : Fin 1 → Fin S1x128x1.rank)
  bcast_S64x1x256_S64x128x256_0_1_2 : S64x1x256.BroadcastsInDim S64x128x256 (![0, 1, 2] : Fin 3 → Fin S64x128x256.rank)
  bcast_S1x128x1_S64x128x256_0_1_2 : S1x128x1.BroadcastsInDim S64x128x256 (![0, 1, 2] : Fin 3 → Fin S64x128x256.rank)
  bcast_S_S64x128x256 : S_.BroadcastsInDim S64x128x256 (![] : Fin 0 → Fin S64x128x256.rank)
  reducesTo_S64x256_S64_d1 : S64x256.ReducesTo [1] S64
  bcast_S_S64 : S_.BroadcastsInDim S64 (![] : Fin 0 → Fin S64.rank)
  reducesTo_S64x128x256_S64x128_d2 : S64x128x256.ReducesTo [2] S64x128
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64x256_S64x256x1_0_1 : S64x256.BroadcastsInDim S64x256x1 (![0, 1] : Fin 2 → Fin S64x256x1.rank)
  bcast_S64x256x1_S64x256x256_0_1_2 : S64x256x1.BroadcastsInDim S64x256x256 (![0, 1, 2] : Fin 3 → Fin S64x256x256.rank)
  bcast_S64x1x256_S64x256x256_0_1_2 : S64x1x256.BroadcastsInDim S64x256x256 (![0, 1, 2] : Fin 3 → Fin S64x256x256.rank)
  bcast_S_S64x256x256 : S_.BroadcastsInDim S64x256x256 (![] : Fin 0 → Fin S64x256x256.rank)
  reducesTo_S64x256x256_S64_d1_2 : S64x256x256.ReducesTo [1, 2] S64
  bcast_S_S64x128 : S_.BroadcastsInDim S64x128 (![] : Fin 0 → Fin S64x128.rank)
  reducesTo_S64x128_S64_d1 : S64x128.ReducesTo [1] S64
  concatenates_S64x1_S64x1_S64x2_d1 : Shape.Concatenates [S64x1, S64x1] S64x2 1
  reducesTo_S64_S_d0 : S64.ReducesTo [0] S_
  dot_S128x1024_S64x256x1024_S128x64x256_1_2_0_01_n_n_wf : DotDims.WF S128x1024 S64x256x1024 S128x64x256 [1] [2] [0] [0, 1] [] []
  dot_S64x256x1024_S64x256x1024_S64x256x256_2_2_1_1_0_0_wf : DotDims.WF S64x256x1024 S64x256x1024 S64x256x256 [2] [2] [1] [1] [0] [0]
  gather_S64x128_S64x2_S64_n_01_n_n_01_1_11_wf : GatherDims.WF S64x128 S64x2 S64 [] [0, 1] [] [0, 1] [] 1 ![1, 1]

variable [Facts₀]

def dot_S128x1024_S64x256x1024_S128x64x256_1_2_0_01_n_n : DotDims S128x1024 S64x256x1024 S128x64x256 where
  lhsContracting := [1]
  rhsContracting := [2]
  lhsNonContracting := [0]
  rhsNonContracting := [0, 1]
  lhsBatch := []
  rhsBatch := []
  wf := dot_S128x1024_S64x256x1024_S128x64x256_1_2_0_01_n_n_wf
def dot_S64x256x1024_S64x256x1024_S64x256x256_2_2_1_1_0_0 : DotDims S64x256x1024 S64x256x1024 S64x256x256 where
  lhsContracting := [2]
  rhsContracting := [2]
  lhsNonContracting := [1]
  rhsNonContracting := [1]
  lhsBatch := [0]
  rhsBatch := [0]
  wf := dot_S64x256x1024_S64x256x1024_S64x256x256_2_2_1_1_0_0_wf
def gather_S64x128_S64x2_S64_n_01_n_n_01_1_11 : GatherDims S64x128 S64x2 S64 where
  offsetDims := []
  collapsedSliceDims := [0, 1]
  operandBatchingDims := []
  startIndicesBatchingDims := []
  startIndexMap := [0, 1]
  indexVectorDim := 1
  sliceSizes := ![1, 1]
  wf := gather_S64x128_S64x2_S64_n_01_n_n_01_1_11_wf

class Facts : Prop extends Facts₀ where

variable [Facts]
-- ==== Proof.Spec.lean ====
/-
  The energy-distance log-likelihood of ONE batch row, on the extended reals.

  A row holds 256 points `x l` in 1024 dimensions and 256 weights `μ l`; `y m` are 128 reference points.
  Distances come from the Gram form `|a|² + |b|² − 2 a·b`, clamped at zero, with a square root whose value
  at zero is taken as zero: `dist u = √(if max u 0 > 0 then max u 0 else 1) · [max u 0 > 0]`. The row's self term is
  the weighted mean of its pairwise distances, the cross term the weighted mean of its distances to `y m`; the score
  is `−20 · (2 · cross − self)` and the result the log-softmax of the scores over `m`.
  The weighted pairwise sum is written in two arrangements: row by row with the weight of the row taken out of the
  inner sum (`edqK`), and as one double sum against the product of the two weights (`edqR`); likewise the score's
  sign is taken as `(0 − e) · 20` or as `(e · 20) · (−1)`. Float literals stay as their words.
-/
import Idealize.ShloMosaic.PureOps.Ideal
import Idealize.ShloMosaic.PureOps.Ideal.Laws
import Idealize.ShloMosaic.Lib.ValueIdx

noncomputable section

namespace Cert.Energy

open Idealize.ShloMosaic

/-- The words of the literals: 0, 1, 2, 20, −1, −∞, 64. -/
abbrev c0 : EReal := Ideal.ofBits .f32 0x00000000#32
abbrev c1 : EReal := Ideal.ofBits .f32 0x3F800000#32
abbrev c2 : EReal := Ideal.ofBits .f32 0x40000000#32
abbrev c20 : EReal := Ideal.ofBits .f32 0x41A00000#32
abbrev cneg1 : EReal := Ideal.ofBits .f32 0xBF800000#32
abbrev cninf : EReal := Ideal.ofBits .f32 0xFF800000#32
abbrev c64 : EReal := Ideal.ofBits .f32 0x42800000#32

/-- The one-bit answer of `a > 0`. -/
def pos (a : EReal) : BitVec 1 := Ideal.cmp .ogt a c0
/-- A bit as a number. -/
def ind (b : BitVec 1) : EReal := ((b.toNat : ℝ) : EReal)
/-- The distance from a squared distance `u`: clamped at zero, its root taken as zero at zero. -/
def dist (u : EReal) : EReal :=
  Ideal.sqrt (Scalar.select (pos (max u c0)) (max u c0) c1) * ind (pos (max u c0))

section row
variable (x : Fin 256 → Fin 1024 → EReal) (y : Fin 128 → Fin 1024 → EReal) (μ : Fin 256 → EReal)

/-- Squared norms and inner products. -/
def sqx (l : Fin 256) : EReal := ∑ d : Fin 1024, x l d * x l d
def sqy (m : Fin 128) : EReal := ∑ d : Fin 1024, y m d * y m d
def gxx (i j : Fin 256) : EReal := ∑ d : Fin 1024, x i d * x j d
def gxy (l : Fin 256) (m : Fin 128) : EReal := ∑ d : Fin 1024, x l d * y m d

/-- The distance between two points of the row, and from a point of the row to a reference point. -/
def d1 (i j : Fin 256) : EReal := dist ((sqx x i + sqx x j) - c2 * gxx x i j)
def d2 (l : Fin 256) (m : Fin 128) : EReal := dist ((sqx x l + sqy y m) - c2 * gxy x y l m)

/-- The total weight of the row. -/
def rv : EReal := ∑ l : Fin 256, μ l

/-- The self term, row by row: `(∑ i, (∑ j, d i j · μ j) · μ i) / max 1 (w · w)`. -/
def edqK : EReal :=
  Ideal.div (∑ i : Fin 256, (∑ j : Fin 256, d1 x i j * μ j) * μ i) (max c1 (rv μ * rv μ))
/-- The self term as one double sum: `(∑ i j, d i j · (μ i · μ j)) / max 1 (∑ i j, μ i · μ j)`. -/
def edqR : EReal :=
  Ideal.div (∑ i : Fin 256, ∑ j : Fin 256, d1 x i j * (μ i * μ j)) (max c1 (∑ i : Fin 256, ∑ j : Fin 256, μ i * μ j))
/-- The cross term against reference point `m`. -/
def eds (m : Fin 128) : EReal := Ideal.div (∑ l : Fin 256, d2 x y l m * μ l) (max c1 (rv μ))

/-- The score of reference point `m`, in the two spellings of its sign. -/
def scoreK (m : Fin 128) : EReal := (c0 - (c2 * eds x y μ m - edqK x μ)) * c20
def scoreR (m : Fin 128) : EReal := ((c2 * eds x y μ m - edqR x μ) * c20) * cneg1
end row

/-- The maximum of a row of scores, folded from −∞. -/
def rowMax (s : Fin 128 → EReal) : EReal := (Finset.univ : Finset (Fin 128)).fold max cninf s
/-- The log-softmax of a row of scores at `m`. -/
def logp (s : Fin 128 → EReal) (m : Fin 128) : EReal :=
  (s m - rowMax s) - Ideal.log (∑ k : Fin 128, Ideal.exp (s k - rowMax s))

/-- Minus the mean of 64 diagonal entries. -/
def loss (D : Fin 64 → EReal) : EReal := -(Ideal.div (∑ n : Fin 64, D n) c64)

/-- Row `n` of the batch as a target column among the 128 reference points. -/
def col (n : Fin 64) : Fin 128 := ⟨n.val, by omega⟩

end Cert.Energy

end
-- ==== Proof.Rows.lean ====
/-
  The 64 rows of the batch: row n's diagonal log-probability as a function of the three argument arrays, for either
  arrangement of the score, and the loss over the rows.
-/
import proofs.«119069_j71021579206985_2_alg».proof.Proof.Spec

noncomputable section

namespace Cert.Energy

open Idealize.ShloMosaic Idealize.ShloMosaic.ValueIdx

/-- Row n's points, the reference points, and row n's weights, out of the arrays. -/
abbrev xrow (X : (⟨3, ![64, 256, 1024]⟩ : Shape).Idx → EReal) (n : Fin 64) : Fin 256 → Fin 1024 → EReal := fun l d => X (ix3 n l d)
abbrev ypts (Y : (⟨2, ![128, 1024]⟩ : Shape).Idx → EReal) : Fin 128 → Fin 1024 → EReal := fun m d => Y (ix2 m d)
abbrev mrow (Mf : (⟨2, ![64, 256]⟩ : Shape).Idx → EReal) (n : Fin 64) : Fin 256 → EReal := fun l => Mf (ix2 n l)

/-- Row n's log-probability of its own column, the scores taken in the arrangement `sc`. -/
def Drow (sc : (Fin 256 → Fin 1024 → EReal) → (Fin 128 → Fin 1024 → EReal) → (Fin 256 → EReal) → Fin 128 → EReal)
    (X : (⟨3, ![64, 256, 1024]⟩ : Shape).Idx → EReal) (Y : (⟨2, ![128, 1024]⟩ : Shape).Idx → EReal)
    (Mf : (⟨2, ![64, 256]⟩ : Shape).Idx → EReal) (n : Fin 64) : EReal :=
  logp (sc (xrow X n) (ypts Y) (mrow Mf n)) (col n)

end Cert.Energy

end
-- ==== Proof.LibIdxSums.lean ====
/-
  Sums over the index sets of rank-1 and rank-3 arrays, by coordinates.

  An index of a rank-1 array is its one coordinate, an index of a rank-3 array the triple of its coordinates; so a sum
  over all indices of such an array is the sum over the coordinate, or the triple sum over the three coordinates (the
  rank-2 case is the library's `sum_idx2`).
-/
import Idealize.ShloMosaic.Lib.ValueIdx

namespace Cert.LibIdxSums

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibIdxSums
-- ==== Proof.KBlocks.lean ====
/-
  The geometry of the kernel's one region, on the extended reals: grid point t handles rows 8t … 8t+7 of the batch.

  Each input window's block at point t, read at coordinates, is the argument array at the same coordinates with the
  row shifted by 8t (the reference points' block is the whole array at every point); the weights' array is the integer
  mask converted to floats by the one host line before the region; the output's block at point t is rows 8t … 8t+7 of the
  [64,1] result, and the eight blocks cover it. After the region the host sums the [64,1] array, divides by 64 and negates.
-/
import proofs.«119069_j71021579206985_2_alg».proof.Proof.KernelIdealFrameP
import proofs.«119069_j71021579206985_2_alg».proof.Proof.Rows
import proofs.«119069_j71021579206985_2_alg».proof.Proof.LibIdxSums
import Idealize.ShloMosaic.Lib.Pipeline.Value
import Idealize.ShloMosaic.Lib.StableHlo.Run
import Idealize.ShloMosaic.PureOps.Ideal.Laws

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Energy

variable (m : (ℓ : Loc nD τ sig) → Buf (Elt Ideal) ℓ) (ρ : Dev nD → PrngReg)

/-- The printed index maps, decided over the grid: windows 0, 2 and 3 move with the point along their first axis,
    window 1 stays, and the point's coordinate is its number. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

theorem t_lt (t : Fin cfg0.N) : t.val < 8 := by
  have hN : cfg0.N = 8 := N_0
  have := t.isLt
  omega

/-- Row p of point t's blocks is row 8t + p of the batch. -/
def rowOf (t : Fin cfg0.N) (p : Fin 8) : Fin 64 := ⟨t.val * 8 + p.val, by have := t_lt t; have := p.isLt; omega⟩

/-- The three argument arrays as the region uses them: the points, the reference points, the weights. -/
abbrev Xa (c : Dev nD) : FVec Ideal S64x256x1024 .f32 := m ((c : Thread nD τ).loc main_arg0)
abbrev Ya (c : Dev nD) : FVec Ideal S128x1024 .f32 := m ((c : Thread nD τ).loc main_arg1)
abbrev Ma (c : Dev nD) : FVec Ideal S64x256 .f32 := sitofp .f32 (m ((c : Thread nD τ).loc main_arg2) : IVec S64x256 32)

/-- The weights' array when the region is entered: the mask converted by the host line before it. -/
theorem V_mask (c : Dev nD) : (V m c main_v0 : FVec Ideal S64x256 .f32) = Ma m c := by
  show StableHlo.after hostOps0 (fun b => m (c, b)) (Proc.devRef .tc main_v0) = _
  after_results

/-- Point t's block of the points, at (p, l, d). -/
theorem iblk0_apply (c : Dev nD) (t : Fin cfg0.N) (p : Fin 8) (l : Fin 256) (d : Fin 1024) :
    (iblk m c 0 t : Vec Ideal S8x256x1024 .f32) (ix3 p l d) = Xa m c (ix3 (rowOf t p) l d) := by
  obtain ⟨e0, e1, e2, -⟩ := idx_facts t
  unfold iblk
  rw [View.read_apply]
  show V m c main_arg0 _ = _
  rw [V_main_arg0]
  refine congrArg (m ((c : Thread nD τ).loc main_arg0) : FVec Ideal S64x256x1024 .f32) ?_
  funext a
  apply Fin.ext
  match a with
  | ⟨0, _⟩ => show win0_0.index t (0 : Fin 3) * 8 + 1 * p.val = t.val * 8 + p.val; rw [e0]; omega
  | ⟨1, _⟩ => show win0_0.index t (1 : Fin 3) * 256 + 1 * l.val = l.val; rw [e1]; omega
  | ⟨2, _⟩ => show win0_0.index t (2 : Fin 3) * 1024 + 1 * d.val = d.val; rw [e2]; omega

/-- Point t's block of the reference points is the whole array. -/
theorem iblk1_apply (c : Dev nD) (t : Fin cfg0.N) (k : Fin 128) (d : Fin 1024) :
    (iblk m c 1 t : Vec Ideal S128x1024 .f32) (ix2 k d) = Ya m c (ix2 k d) := by
  obtain ⟨-, -, -, e0, e1, -⟩ := idx_facts t
  unfold iblk
  rw [View.read_apply]
  show V m c main_arg1 _ = _
  rw [V_main_arg1]
  refine congrArg (m ((c : Thread nD τ).loc main_arg1) : FVec Ideal S128x1024 .f32) ?_
  funext a
  apply Fin.ext
  match a with
  | ⟨0, _⟩ => show win0_1.index t (0 : Fin 2) * 128 + 1 * k.val = k.val; rw [e0]; omega
  | ⟨1, _⟩ => show win0_1.index t (1 : Fin 2) * 1024 + 1 * d.val = d.val; rw [e1]; omega

/-- Point t's block of the weights, at (p, l). -/
theorem iblk2_apply (c : Dev nD) (t : Fin cfg0.N) (p : Fin 8) (l : Fin 256) :
    (iblk m c 2 t : Vec Ideal S8x256 .f32) (ix2 p l) = Ma m c (ix2 (rowOf t p) l) := by
  obtain ⟨-, -, -, -, -, e0, e1, -⟩ := idx_facts t
  unfold iblk
  rw [View.read_apply]
  show V m c main_v0 _ = _
  rw [V_mask]
  refine congrArg (Ma m c) ?_
  funext a
  apply Fin.ext
  match a with
  | ⟨0, _⟩ => show win0_2.index t (0 : Fin 2) * 8 + 1 * p.val = t.val * 8 + p.val; rw [e0]; omega
  | ⟨1, _⟩ => show win0_2.index t (1 : Fin 2) * 256 + 1 * l.val = l.val; rw [e1]; omega

/-- Where row p of point t's output block sits in the [64,1] array. -/
theorem emb3 (t : Fin cfg0.N) (p : Fin 8) (u : Fin 1) :
    ((cfg0.win 3).blk t).view.emb (ix2 p u) = (ix2 (rowOf t p) (0 : Fin 1) : S64x1.Idx) := by
  obtain ⟨-, -, -, -, -, -, -, e0, e1, -⟩ := idx_facts t
  funext a
  apply Fin.ext
  match a with
  | ⟨0, _⟩ => show win0_3.index t (0 : Fin 2) * 8 + 1 * p.val = t.val * 8 + p.val; rw [e0]; omega
  | ⟨1, _⟩ => show win0_3.index t (1 : Fin 2) * 1 + 1 * u.val = 0; rw [e1]; omega

/-- An index of the [64,1] array is in point t's block iff its row is among 8t … 8t+7. -/
theorem mem_blk3 (t : Fin cfg0.N) (i : S64x1.Idx) :
    i ∈ ((cfg0.win 3).blk t).view.set ↔ ∀ a : Fin 2, win0_3.index t a * S8x1.size a ≤ (i a).val ∧ (i a).val < win0_3.index t a * S8x1.size a + S8x1.size a := by
  show i ∈ ((View.whole main_v1).slice (win0_3.rect t)).set ↔ _
  rw [View.set_slice_whole, Rect.mem_set_unit]
  exact Iff.rfl

/-- Every index of the [64,1] array is in the block of the point its row belongs to, and every point writes back. -/
theorem cover3 (i : S64x1.Idx) : ∃ t : Fin cfg0.N, (cfg0.win 3).flush t = true ∧ i ∈ ((cfg0.win 3).blk t).view.set := by
  have hN : grid0.N = 8 := N_0
  have h0 : (i 0).val < 64 := (i 0).isLt
  have h1 : (i 1).val < 1 := (i 1).isLt
  have ht : (i 0).val / 8 < cfg0.N := by show (i 0).val / 8 < grid0.N; omega
  refine ⟨⟨(i 0).val / 8, ht⟩, flush0_3 _, ?_⟩
  obtain ⟨-, -, -, -, -, -, -, e0, e1, -⟩ := idx_facts ⟨(i 0).val / 8, ht⟩
  rw [mem_blk3]
  intro a
  match a with
  | ⟨0, _⟩ =>
    show win0_3.index ⟨(i 0).val / 8, ht⟩ (0 : Fin 2) * 8 ≤ (i 0).val ∧ (i 0).val < win0_3.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_3.index ⟨(i 0).val / 8, ht⟩ (1 : Fin 2) * 1 ≤ (i 1).val ∧ (i 1).val < win0_3.index ⟨(i 0).val / 8, ht⟩ (1 : Fin 2) * 1 + 1
    rw [e1]; omega

end Cert.KernelIdeal.Hand

end
-- ==== Proof.KGram.lean ====
/-
  The self Gram matrix of a block of eight rows, read at an index written by coordinates, on the extended reals.

  The block product contracts the last axis of two [8,256,1024] arrays with the batch axis in front: its entry at
  (p, i, j) is the sum over d of the left array at (p, i, d) times the right at (p, j, d).
-/
import proofs.«119069_j71021579206985_2_alg».proof.KernelIdeal
import proofs.«119069_j71021579206985_2_alg».proof.Proof.Gen.KernelIdeal
import Idealize.ShloMosaic.PureOps.Ideal.Laws
import Idealize.ShloMosaic.Lib.ValueIdx

noncomputable section

namespace Cert.Energy

open Idealize.ShloMosaic Idealize.ShloMosaic.ValueIdx Cert.KernelIdeal

/-! ## The block's self Gram matrix -/

theorem gram_lhs_0 (i : S8x256x256.Idx) (q : dot_S8x256x1024_S8x256x1024_S8x256x256_2_2_1_1_0_0.contr.Idx) : (dot_S8x256x1024_S8x256x1024_S8x256x256_2_2_1_1_0_0.lhsIdx i q 0).val = (i 0).val := by
  unfold DotDims.lhsIdx
  rw [dif_pos (show (0 : Fin S8x256x1024.rank) ∈ dot_S8x256x1024_S8x256x1024_S8x256x256_2_2_1_1_0_0.lhsBatch by decide)]
  rfl
theorem gram_lhs_1 (i : S8x256x256.Idx) (q : dot_S8x256x1024_S8x256x1024_S8x256x256_2_2_1_1_0_0.contr.Idx) : (dot_S8x256x1024_S8x256x1024_S8x256x256_2_2_1_1_0_0.lhsIdx i q 1).val = (i 1).val := by
  unfold DotDims.lhsIdx
  rw [dif_neg (show ¬(1 : Fin S8x256x1024.rank) ∈ dot_S8x256x1024_S8x256x1024_S8x256x256_2_2_1_1_0_0.lhsBatch by decide), dif_pos (show (1 : Fin S8x256x1024.rank) ∈ dot_S8x256x1024_S8x256x1024_S8x256x256_2_2_1_1_0_0.lhsNonContracting by decide)]
  rfl
theorem gram_lhs_2 (i : S8x256x256.Idx) (q : dot_S8x256x1024_S8x256x1024_S8x256x256_2_2_1_1_0_0.contr.Idx) : (dot_S8x256x1024_S8x256x1024_S8x256x256_2_2_1_1_0_0.lhsIdx i q 2).val = (q ⟨0, by decide⟩).val :=
  dot_S8x256x1024_S8x256x1024_S8x256x256_2_2_1_1_0_0.lhsIdx_val_of_single rfl i q
theorem gram_rhs_0 (i : S8x256x256.Idx) (q : dot_S8x256x1024_S8x256x1024_S8x256x256_2_2_1_1_0_0.contr.Idx) : (dot_S8x256x1024_S8x256x1024_S8x256x256_2_2_1_1_0_0.rhsIdx i q 0).val = (i 0).val := by
  unfold DotDims.rhsIdx
  rw [dif_pos (show (0 : Fin S8x256x1024.rank) ∈ dot_S8x256x1024_S8x256x1024_S8x256x256_2_2_1_1_0_0.rhsBatch by decide)]
  rfl
theorem gram_rhs_1 (i : S8x256x256.Idx) (q : dot_S8x256x1024_S8x256x1024_S8x256x256_2_2_1_1_0_0.contr.Idx) : (dot_S8x256x1024_S8x256x1024_S8x256x256_2_2_1_1_0_0.rhsIdx i q 1).val = (i 2).val := by
  unfold DotDims.rhsIdx
  rw [dif_neg (show ¬(1 : Fin S8x256x1024.rank) ∈ dot_S8x256x1024_S8x256x1024_S8x256x256_2_2_1_1_0_0.rhsBatch by decide), dif_pos (show (1 : Fin S8x256x1024.rank) ∈ dot_S8x256x1024_S8x256x1024_S8x256x256_2_2_1_1_0_0.rhsNonContracting by decide)]
  rfl
theorem gram_rhs_2 (i : S8x256x256.Idx) (q : dot_S8x256x1024_S8x256x1024_S8x256x256_2_2_1_1_0_0.contr.Idx) : (dot_S8x256x1024_S8x256x1024_S8x256x256_2_2_1_1_0_0.rhsIdx i q 2).val = (q ⟨0, by decide⟩).val :=
  dot_S8x256x1024_S8x256x1024_S8x256x256_2_2_1_1_0_0.rhsIdx_val_of_single rfl i q

/-- The block product into the zero accumulator at (p, i, j): `∑ d, L (p, i, d) · R (p, j, d)`. -/
theorem selfGram_apply {φ₁ φ₂ : FTy} (L : FVec Ideal S8x256x1024 φ₁) (R : FVec Ideal S8x256x1024 φ₂) (p : Fin 8) (i j : Fin 256) :
    FloatOps.matmul dot_S8x256x1024_S8x256x1024_S8x256x256_2_2_1_1_0_0 none L R (constant S8x256x256 .f32 0x00000000#32) (ix3 p i j)
      = ∑ d : Fin 1024, L (ix3 p i d) * R (ix3 p j d) := by
  rw [Ideal.matmul_constant_zero_apply, ← Equiv.sum_comp (ValueIdx.contrEquiv1 dot_S8x256x1024_S8x256x1024_S8x256x256_2_2_1_1_0_0 1024 rfl rfl).symm]
  refine Finset.sum_congr rfl fun k _ => ?_
  have hk := ValueIdx.contrEquiv1_symm_val dot_S8x256x1024_S8x256x1024_S8x256x256_2_2_1_1_0_0 1024 rfl rfl k
  have el : dot_S8x256x1024_S8x256x1024_S8x256x256_2_2_1_1_0_0.lhsIdx (ix3 p i j) ((ValueIdx.contrEquiv1 dot_S8x256x1024_S8x256x1024_S8x256x256_2_2_1_1_0_0 1024 rfl rfl).symm k) = ix3 p i k := funext fun a => Fin.ext (by
    match a with
    | ⟨0, _⟩ => exact gram_lhs_0 _ _
    | ⟨1, _⟩ => exact gram_lhs_1 _ _
    | ⟨2, _⟩ => exact (gram_lhs_2 _ _).trans hk)
  have er : dot_S8x256x1024_S8x256x1024_S8x256x256_2_2_1_1_0_0.rhsIdx (ix3 p i j) ((ValueIdx.contrEquiv1 dot_S8x256x1024_S8x256x1024_S8x256x256_2_2_1_1_0_0 1024 rfl rfl).symm k) = ix3 p j k := funext fun a => Fin.ext (by
    match a with
    | ⟨0, _⟩ => exact gram_rhs_0 _ _
    | ⟨1, _⟩ => exact gram_rhs_1 _ _
    | ⟨2, _⟩ => exact (gram_rhs_2 _ _).trans hk)
  rw [el, er]

end Cert.Energy

end
-- ==== Proof.LibLayout3.lean ====
/-
  Casts and broadcasts between a matrix and a rank-3 array with a unit axis, read at an index written by coordinates.

  A matrix [a, b] viewed as [a, 1, b] or as [a, b, 1] keeps each entry at the same row-major position, so the entry at
  (n, 0, j), or at (n, i, 0), is the matrix's entry at (n, j), or at (n, i); dropping a trailing unit axis reads the same way
  back. Broadcasting [a, 1, c] or [a, b, 1] to [a, b, c] repeats the array along the unit axis: the entry at (n, i, j) is the
  operand's at (n, 0, j), or at (n, i, 0). These are the forms a table of all pairs of a row's entries is built from.
-/
import Idealize.ShloMosaic.Lib.Pipeline.Value
import Idealize.ShloMosaic.Lib.ValueIdx

namespace Cert.LibLayout3

open Idealize.ShloMosaic Idealize.ShloMosaic.ValueIdx

variable {α : Type}

/-- An `[a, b]` array cast to `[a, 1, b]` reads, at `(n, u, j)`, the operand at `(n, j)`. -/
theorem shapeCast_ab_a1b_apply {a b : ℕ} (x : (⟨2, ![a, b]⟩ : Shape).Idx → α)
    (h : (⟨2, ![a, b]⟩ : Shape).ShapeCasts ⟨3, ![a, 1, b]⟩) (n : Fin a) (u : Fin 1) (j : Fin b) :
    shapeCast ⟨3, ![a, 1, b]⟩ x h (ix3 n u j) = x (ix2 n j) :=
  shapeCast_apply x h _ _ (by
    have hu : u.val = 0 := by omega
    rw [Shape.rowMajor_val_three, Shape.rowMajor_val_two]
    show n.val * b + j.val = (n.val * 1 + u.val) * b + j.val
    rw [hu, Nat.mul_one, Nat.add_zero])

/-- An `[a, b]` array cast to `[a, b, 1]` reads, at `(n, i, u)`, the operand at `(n, i)`. -/
theorem shapeCast_ab_ab1_apply {a b : ℕ} (x : (⟨2, ![a, b]⟩ : Shape).Idx → α)
    (h : (⟨2, ![a, b]⟩ : Shape).ShapeCasts ⟨3, ![a, b, 1]⟩) (n : Fin a) (i : Fin b) (u : Fin 1) :
    shapeCast ⟨3, ![a, b, 1]⟩ x h (ix3 n i u) = x (ix2 n i) :=
  shapeCast_apply x h _ _ (by
    have hu : u.val = 0 := by omega
    rw [Shape.rowMajor_val_three, Shape.rowMajor_val_two]
    show n.val * b + i.val = (n.val * b + i.val) * 1 + u.val
    rw [hu, Nat.mul_one, Nat.add_zero])

/-- An `[a, b, 1]` array cast to `[a, b]` reads, at `(n, i)`, the operand at `(n, i, 0)`. -/
theorem shapeCast_ab1_ab_apply {a b : ℕ} (x : (⟨3, ![a, b, 1]⟩ : Shape).Idx → α)
    (h : (⟨3, ![a, b, 1]⟩ : Shape).ShapeCasts ⟨2, ![a, b]⟩) (n : Fin a) (i : Fin b) :
    shapeCast ⟨2, ![a, b]⟩ x h (ix2 n i) = x (ix3 n i (0 : Fin 1)) :=
  shapeCast_apply x h _ _ (by
    rw [Shape.rowMajor_val_three, Shape.rowMajor_val_two]
    show (n.val * b + i.val) * 1 + 0 = n.val * b + i.val
    rw [Nat.mul_one, Nat.add_zero])

/-- An `[a, 1, c]` array broadcast to `[a, b, c]` reads, at `(n, i, j)`, the operand at `(n, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (n : Fin a) (i : Fin b) (j : Fin c) :
    broadcastTo ⟨3, ![a, b, c]⟩ v h (ix3 n i j) = v (ix3 n (0 : Fin 1) j) := by
  refine broadcastTo_apply v h (ix3 n i j) (ix3 n (0 : Fin 1) j) fun ax => ?_
  match ax with
  | ⟨0, _⟩ =>
    show n.val = if a = 1 then 0 else n.val
    split
    · have := n.isLt; omega
    · rfl
  | ⟨1, _⟩ => rfl
  | ⟨2, _⟩ =>
    show j.val = if c = 1 then 0 else j.val
    split
    · have := j.isLt; omega
    · rfl

/-- An `[a, b, 1]` array broadcast to `[a, b, c]` reads, at `(n, i, j)`, the operand at `(n, i, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (n : Fin a) (i : Fin b) (j : Fin c) :
    broadcastTo ⟨3, ![a, b, c]⟩ v h (ix3 n i j) = v (ix3 n i (0 : Fin 1)) := by
  refine broadcastTo_apply v h (ix3 n i j) (ix3 n i (0 : Fin 1)) fun ax => ?_
  match ax with
  | ⟨0, _⟩ =>
    show n.val = if a = 1 then 0 else n.val
    split
    · have := n.isLt; omega
    · rfl
  | ⟨1, _⟩ =>
    show i.val = if b = 1 then 0 else i.val
    split
    · have := i.isLt; omega
    · rfl
  | ⟨2, _⟩ => rfl

end Cert.LibLayout3
-- ==== Proof.LibKeepdims.lean ====
/-
  Layout operations of a `sum(..., keepdims=True)` read at an index written by coordinates.

  A row sum kept as a column is a vector of extent `a` cast to shape `[a, 1]`; a column used against a matrix is
  `[a, 1]` broadcast to `[a, b]`; a total kept as a `[1, 1]` block is a vector of extent `1` cast to `[1, 1]`.
  Each reads its operand at the evident coordinate: the cast keeps the row-major position, the broadcast repeats the
  one column.
-/
import Idealize.ShloMosaic.Lib.Pipeline.Value
import Idealize.ShloMosaic.Lib.ValueIdx

namespace Cert.LibKeepdims

open Idealize.ShloMosaic Idealize.ShloMosaic.ValueIdx

variable {α : Type}

/-- A vector of extent `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of extent `1` cast to the block shape `[1, 1]` reads its one element, wherever it is read. -/
theorem shapeCast_1_11_apply (x : (⟨1, ![1]⟩ : Shape).Idx → α) (h : (⟨1, ![1]⟩ : Shape).ShapeCasts ⟨2, ![1, 1]⟩)
    (y : (⟨2, ![1, 1]⟩ : Shape).Idx) : shapeCast ⟨2, ![1, 1]⟩ x h y = x (ix1 (0 : Fin 1)) :=
  shapeCast_apply x h _ _ (by
    have h0 : (y 0).val < 1 := idx2_lt0 y
    have h1 : (y 1).val < 1 := idx2_lt1 y
    rw [Shape.rowMajor_val_two, Shape.rowMajor_val_one]
    show (0 : ℕ) = (y 0).val * 1 + (y 1).val
    omega)

/-- The `[1, 1]` block has one index. -/
theorem idx11_eq (y y' : (⟨2, ![1, 1]⟩ : Shape).Idx) : y = y' := by
  funext d
  apply Fin.ext
  match d with
  | ⟨0, _⟩ => show (y 0).val = (y' 0).val; have := idx2_lt0 y; have := idx2_lt0 y'; omega
  | ⟨1, _⟩ => show (y 1).val = (y' 1).val; have := idx2_lt1 y; have := idx2_lt1 y'; omega

end Cert.LibKeepdims
-- ==== Proof.LibLaneSum.lean ====
/-
  A sum along the last axis of a matrix, read at an index written by coordinates.

  A `vector.multi_reduction <add>` over axis 1 of an `[a, b]` array from the zero word, read on the extended reals at row
  `p`, is the sum over `k` of the array at `(p, k)`: the library reads the reduction as a sum over the dropped axis of the
  source at the result index with the coordinate put back, and on literal axes that index is `(p, k)`.
-/
import Idealize.ShloMosaic.PureOps.Ideal.Laws
import Idealize.ShloMosaic.Lib.ValueIdx

namespace Cert.LibLaneSum

open Idealize.ShloMosaic Idealize.ShloMosaic.ValueIdx

variable {a b : ℕ}

/-- The row index `p` with the column `k` put back is `(p, k)`. -/
theorem lift_last (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- A row sum of an `[a, b]` array from the zero word, at row `p`: `∑ k, src (p, k)`. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last h p k))

end Cert.LibLaneSum
-- ==== Proof.LibSum3.lean ====
/-
  Sums along one axis of a rank-3 array, read at an index written by coordinates.

  A `vector.multi_reduction <add>` over the last axis [2] of an `[a, b, c]` array from the zero word, read on the extended
  reals at `(p, q)`, is the sum over `k` of the array at `(p, q, k)`; over the middle axis [1], read at `(p, r)`, it is the sum
  over `k` of the array at `(p, k, r)`. The library reads the reduction as a sum over the dropped axis of the source at the
  result index with the coordinate put back, and on literal axes that index is the one named.
-/
import Idealize.ShloMosaic.PureOps.Ideal.Laws
import Idealize.ShloMosaic.Lib.ValueIdx

namespace Cert.LibSum3

open Idealize.ShloMosaic Idealize.ShloMosaic.ValueIdx

variable {a b c : ℕ}

/-- The index (p, q) with the last coordinate k put back is (p, q, k). -/
theorem lift3_last (h : (⟨3, ![a, b, c]⟩ : Shape).Reduces [2] ⟨2, ![a, b]⟩) (p : Fin a) (q : Fin b) (k : Fin c) :
    h.lift (ix2 p q) k = ix3 p q k :=
  funext fun e => Fin.ext (by
    match e with
    | ⟨0, _⟩ => rfl
    | ⟨1, _⟩ => rfl
    | ⟨2, _⟩ => rfl)

/-- A sum over the last axis from the zero word, at (p, q): `∑ k, src (p, q, k)`. -/
theorem sum3_last {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift3_last h p q k))

/-- The index (p, r) with the middle coordinate k put back is (p, k, r). -/
theorem lift3_mid (h : (⟨3, ![a, b, c]⟩ : Shape).Reduces [1] ⟨2, ![a, c]⟩) (p : Fin a) (r : Fin c) (k : Fin b) :
    h.lift (ix2 p r) k = ix3 p k r :=
  funext fun e => Fin.ext (by
    match e with
    | ⟨0, _⟩ => rfl
    | ⟨1, _⟩ => rfl
    | ⟨2, _⟩ => rfl)

/-- A sum over the middle axis from the zero word, at (p, r): `∑ k, src (p, k, r)`. -/
theorem sum3_mid {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) :=
  (Ideal.multiReduction_add_single src acc h hφ hacc (ix2 p r)).trans
    (Finset.sum_congr rfl fun k _ => congrArg src (lift3_mid h p r k))

end Cert.LibSum3
-- ==== Proof.KPaySelf.lean ====
/-
  The kernel's row quantities on a block of eight rows, read at an index written by coordinates, on the extended reals:
  the weights as loaded, the squared norms of the row's points and of the reference points, the row's total weight,
  and the weighted sum of the row's pairwise distances taken row by row,
  `∑ i, (∑ j, d i j · μ j) · μ i`.

  The distance chain — clamp at zero, compare with zero, choose the clamped value or one, take the root, multiply by
  the comparison's bit read as a number — is `dist` of the squared distance at every index, for any shape.
-/
import proofs.«119069_j71021579206985_2_alg».proof.Proof.Spec
import proofs.«119069_j71021579206985_2_alg».proof.Proof.KGram
import proofs.«119069_j71021579206985_2_alg».proof.Proof.Gen.KernelIdeal.Skeleton
import proofs.«119069_j71021579206985_2_alg».proof.Proof.LibLayout3
import proofs.«119069_j71021579206985_2_alg».proof.Proof.LibKeepdims
import proofs.«119069_j71021579206985_2_alg».proof.Proof.LibLaneSum
import proofs.«119069_j71021579206985_2_alg».proof.Proof.LibSum3
import Idealize.ShloMosaic.Lib.Pipeline.Value

noncomputable section

namespace Cert.Energy

open Idealize.ShloMosaic Idealize.ShloMosaic.ValueIdx Cert.KernelIdeal Cert.KernelIdeal.Gen

/-- A bit widened to a word and read signed is the bit as a number. -/
theorem toInt_widen_bit : ∀ b : BitVec 1, (b.setWidth 32).toInt = (b.toNat : ℤ) := by decide

theorem sitofp_widen_ind (b : BitVec 1) : FloatOps.sitofp (F := Ideal) .f32 (b.setWidth 32) = ind b := by
  show ((((b.setWidth 32).toInt : ℤ) : ℝ) : EReal) = ((b.toNat : ℝ) : EReal)
  rw [toInt_widen_bit]
  norm_cast

/-- The distance chain at an index is `dist` of the squared distance there. -/
theorem distChain_apply {s : Shape} (u : FVec Ideal s .f32) (h32 : 1 < 32) (idx : s.Idx) :
    mulf (sqrt (select (cmpf .ogt (maximumf u (broadcast s (Scalar.ofBits .f32 0x00000000#32))) (broadcast s (Scalar.ofBits .f32 0x00000000#32)))
            (maximumf u (broadcast s (Scalar.ofBits .f32 0x00000000#32))) (broadcast s (Scalar.ofBits .f32 0x3F800000#32))))
        (sitofp .f32 (extui 32 (cmpf .ogt (maximumf u (broadcast s (Scalar.ofBits .f32 0x00000000#32))) (broadcast s (Scalar.ofBits .f32 0x00000000#32))) h32)) idx
      = dist (u idx) := by
  show Ideal.sqrt (Scalar.select (pos (max (u idx) c0)) (max (u idx) c0) c1)
      * FloatOps.sitofp (F := Ideal) .f32 ((pos (max (u idx) c0)).setWidth 32) = dist (u idx)
  rw [sitofp_widen_ind]
  rfl

/-- The weights as loaded (a cast to the same shape). -/
theorem pay2_eq (v1 : Vec Ideal S8x256 .f32) : k0_pay2 (F := Ideal) v1 = v1 := by
  unfold k0_pay2
  exact shapeCast_self v1 _

/-- The squared norm of point l of row p. -/
theorem pay3_apply (v0 : Vec Ideal S8x256x1024 .f32) (p : Fin 8) (l : Fin 256) :
    k0_pay3 (F := Ideal) v0 (ix2 p l) = sqx (fun l d => v0 (ix3 p l d)) l := by
  unfold k0_pay3
  exact LibSum3.sum3_last _ _ _ _ _ p l

/-- Rounding to bf16 is the identity on the extended reals. -/
theorem pay4_apply (v0 : Vec Ideal S8x256x1024 .f32) (idx : S8x256x1024.Idx) : k0_pay4 (F := Ideal) v0 idx = v0 idx := rfl
theorem pay6_apply (v6 : Vec Ideal S128x1024 .f32) (idx : S128x1024.Idx) : k0_pay6 (F := Ideal) v6 idx = v6 idx := rfl

/-- The squared norm of reference point m. -/
theorem pay5_apply (v6 : Vec Ideal S128x1024 .f32) (m : Fin 128) :
    k0_pay5 (F := Ideal) v6 (ix1 m) = sqy (fun m d => v6 (ix2 m d)) m := by
  unfold k0_pay5
  exact LibLaneSum.rowSum_apply _ _ _ _ _ m

/-- The total weight of row p. -/
theorem pay8_apply (v1 : Vec Ideal S8x256 .f32) (p : Fin 8) :
    k0_pay8 (F := Ideal) v1 (ix2 p (0 : Fin 1)) = rv (fun l => v1 (ix2 p l)) := by
  unfold k0_pay8
  refine (LibKeepdims.shapeCast_a_a1_apply _ _ p 0).trans ?_
  refine (LibLaneSum.rowSum_apply _ _ _ _ _ p).trans ?_
  rw [pay2_eq]
  rfl

/-- The self term's divisor for row p: `max 1 (w · w)`. -/
theorem pay9_apply (v1 : Vec Ideal S8x256 .f32) (p : Fin 8) :
    k0_pay9 (F := Ideal) v1 (ix2 p (0 : Fin 1)) = max c1 (rv (fun l => v1 (ix2 p l)) * rv (fun l => v1 (ix2 p l))) := by
  unfold k0_pay9
  show max c1 (k0_pay8 (F := Ideal) v1 (ix2 p (0 : Fin 1)) * k0_pay8 (F := Ideal) v1 (ix2 p (0 : Fin 1))) = _
  rw [pay8_apply]

/-- The weighted sum of row p's pairwise distances, row by row. -/
theorem pay7_apply (v0 : Vec Ideal S8x256x1024 .f32) (v1 : Vec Ideal S8x256 .f32) (p : Fin 8) :
    k0_pay7 (F := Ideal) v0 v1 (ix2 p (0 : Fin 1))
      = ∑ i : Fin 256, (∑ j : Fin 256, d1 (fun l d => v0 (ix3 p l d)) i j * v1 (ix2 p j)) * v1 (ix2 p i) := by
  unfold k0_pay7
  rw [pay2_eq]
  refine (LibKeepdims.shapeCast_a_a1_apply _ _ p 0).trans ?_
  refine (LibLaneSum.rowSum_apply _ _ _ _ _ p).trans ?_
  refine Finset.sum_congr rfl fun i _ => ?_
  refine congrArg (· * v1 (ix2 p i)) ?_
  refine (LibSum3.sum3_last _ _ _ _ _ p i).trans (Finset.sum_congr rfl fun j _ => ?_)
  refine congrArg₂ (· * ·) ?_ ?_
  · refine (distChain_apply _ _ (ix3 p i j)).trans (congrArg dist ?_)
    refine congrArg₂ (· - ·) (congrArg₂ (· + ·) ?_ ?_) (congrArg (c2 * ·) ?_)
    · exact (LibLayout3.broadcastTo_ab1_abc_apply _ _ p i j).trans
        ((LibLayout3.shapeCast_ab_ab1_apply _ _ p i 0).trans (pay3_apply v0 p i))
    · exact (LibLayout3.broadcastTo_a1c_abc_apply _ _ p i j).trans
        ((LibLayout3.shapeCast_ab_a1b_apply _ _ p 0 j).trans (pay3_apply v0 p j))
    · exact selfGram_apply (k0_pay4 (F := Ideal) v0) (k0_pay4 (F := Ideal) v0) p i j
  · exact (LibLayout3.broadcastTo_a1c_abc_apply _ _ p i j).trans (LibLayout3.shapeCast_ab_a1b_apply _ _ p 0 j)

end Cert.Energy

end
-- ==== Proof.KPayDiag.lean ====
/-
  The diagonal pick on a block of eight rows, read at an index written by coordinates, on the extended reals.

  Row p of block i0 is row i0·8 + p of the batch, and its target column is that same number. The kernel compares each
  column's number with `i0·8 + p` as 32-bit words, keeps the entry where they agree and zero elsewhere, and sums the
  row: the numbers are below 2³², so the words agree exactly when the numbers do, and the sum is the one entry kept.
-/
import proofs.«119069_j71021579206985_2_alg».proof.Proof.Gen.KernelIdeal.Skeleton
import proofs.«119069_j71021579206985_2_alg».proof.Proof.LibKeepdims
import proofs.«119069_j71021579206985_2_alg».proof.Proof.LibLaneSum
import Idealize.ShloMosaic.Lib.Pipeline.Value
import Idealize.ShloMosaic.PureOps.Ideal.Laws

noncomputable section

namespace Cert.Energy

open Idealize.ShloMosaic Idealize.ShloMosaic.ValueIdx Cert.KernelIdeal Cert.KernelIdeal.Gen

/-- The one-bit answer of a word equality is one exactly when the words are equal. -/
theorem cmpi_eq_one_iff (a b : BitVec 32) : IntOp.cmpi .eq a b = 1#1 ↔ a = b := by
  show BitVec.ofBool (a == b) = 1#1 ↔ a = b
  constructor
  · intro h
    by_contra hne
    have hf : (a == b) = false := beq_eq_false_iff_ne.mpr hne
    rw [hf] at h
    exact absurd h (by decide)
  · rintro rfl
    rw [beq_self_eq_true]
    rfl

/-- Two numbers below 2³² are equal exactly when their words are. -/
theorem ofNat_inj_small (a b : ℕ) (ha : a < 2 ^ 32) (hb : b < 2 ^ 32) : BitVec.ofNat 32 a = BitVec.ofNat 32 b ↔ a = b := by
  constructor
  · intro h
    have hn := congrArg BitVec.toNat h
    rwa [BitVec.toNat_ofNat, BitVec.toNat_ofNat, Nat.mod_eq_of_lt ha, Nat.mod_eq_of_lt hb] at hn
  · rintro rfl; rfl

/-- The target word of row p of block i0 is the word of `i0·8 + p`. -/
theorem tgt_word (i0 : ℕ) (hi : i0 < 8) (p : Fin 8) :
    IntOp.addi (Scalar.muli (BitVec.ofNat 32 i0) 8#32) (BitVec.ofNat 32 p.val) = BitVec.ofNat 32 (i0 * 8 + p.val) := by
  apply BitVec.eq_of_toNat_eq
  show ((BitVec.ofNat 32 i0 * 8#32) + BitVec.ofNat 32 p.val).toNat = (BitVec.ofNat 32 (i0 * 8 + p.val)).toNat
  simp only [BitVec.toNat_add, BitVec.toNat_mul, BitVec.toNat_ofNat]
  have := p.isLt
  omega

/-- The diagonal pick at row p of block i0: the row's entry at column `i0·8 + p`. -/
theorem pay1_apply (i0 : ℕ) (hi : i0 < 8) (v88 : FVec Ideal S8x128 .f32) (p : Fin 8) :
    k0_pay1 (F := Ideal) (BitVec.ofNat 32 i0) v88 (ix2 p (0 : Fin 1))
      = v88 (ix2 p (⟨i0 * 8 + p.val, by have := p.isLt; omega⟩ : Fin 128)) := by
  have hbit : ∀ m : Fin 128,
      IntOp.cmpi .eq (iota .tc S8x128 32 [1] iota_S8x128_d1_w32 (ix2 p m))
        (IntOp.addi (Scalar.muli (BitVec.ofNat 32 i0) 8#32) (iota .tc S8x128 32 [0] iota_S8x128_d0_w32 (ix2 p m))) = 1#1
        ↔ m.val = i0 * 8 + p.val := by
    intro m
    rw [iota_single_apply, iota_single_apply, cmpi_eq_one_iff]
    show BitVec.ofNat 32 m.val = IntOp.addi (Scalar.muli (BitVec.ofNat 32 i0) 8#32) (BitVec.ofNat 32 p.val) ↔ _
    rw [tgt_word i0 hi p]
    exact ofNat_inj_small _ _ (by have := m.isLt; omega) (by have := p.isLt; omega)
  unfold k0_pay1
  refine (LibKeepdims.shapeCast_a_a1_apply _ _ p 0).trans ?_
  refine (LibLaneSum.rowSum_apply _ _ _ _ _ p).trans ?_
  refine (Finset.sum_eq_single (⟨i0 * 8 + p.val, by have := p.isLt; omega⟩ : Fin 128) (fun m _ hm => ?_)
    (fun h => absurd (Finset.mem_univ _) h)).trans ?_
  · show Scalar.select (IntOp.cmpi .eq (iota .tc S8x128 32 [1] iota_S8x128_d1_w32 (ix2 p m))
        (IntOp.addi (Scalar.muli (BitVec.ofNat 32 i0) 8#32) (iota .tc S8x128 32 [0] iota_S8x128_d0_w32 (ix2 p m))))
        (v88 (ix2 p m)) (Ideal.ofBits .f32 0x00000000#32) = 0
    unfold Scalar.select
    exact (if_neg (fun h => hm (Fin.ext ((hbit m).mp h)))).trans Ideal.ofBits_zero_f32
  · show Scalar.select (IntOp.cmpi .eq (iota .tc S8x128 32 [1] iota_S8x128_d1_w32 (ix2 p _))
        (IntOp.addi (Scalar.muli (BitVec.ofNat 32 i0) 8#32) (iota .tc S8x128 32 [0] iota_S8x128_d0_w32 (ix2 p _))))
        (v88 (ix2 p _)) (Ideal.ofBits .f32 0x00000000#32) = _
    unfold Scalar.select
    exact if_pos ((hbit (⟨i0 * 8 + p.val, by have := p.isLt; omega⟩ : Fin 128)).mpr rfl)

end Cert.Energy

end
-- ==== Proof.LibGram.lean ====
/-
  Three array forms read at an index written by coordinates, at the ideal instance (floats are extended reals).

  * A matrix product contracted on BOTH operands' last axes, `[M, K] × [N, K] → [M, N]` (a Gram matrix `X · Xᵀ` when the
    two operands are one array), into the zero accumulator: entry `(r, c)` is `∑ k, L (r, k) · R (c, k)`.
  * The sum of a column `[a, 1]` over its first axis, into `[1]`, from the neutral word: `∑ k, v (k, 0)`.
  * A `[1, 1]` value broadcast to `[a, b]`: every entry is the one value.
  Imports only the library.
-/
import Idealize.ShloMosaic.PureOps.Ideal.Laws
import Idealize.ShloMosaic.Lib.ValueIdx
import Idealize.ShloMosaic.Lib.Pipeline.Value

namespace Cert.LibGram

open Idealize.ShloMosaic Idealize.ShloMosaic.ValueIdx

variable {M K N : ℕ}

/-- The left operand's index keeps the output's row. -/
theorem lhsIdx_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's index takes the contraction position as its column. -/
theorem lhsIdx_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's index takes the output's column as its row. -/
theorem rhsIdx_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's index takes the contraction position as its column. -/
theorem rhsIdx_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A product contracted on both last axes into the zero accumulator, at `(r, c)`: `∑ k, L (r, k) · R (c, k)`. -/
theorem matmul_transposedRhs_zero_apply {φ₁ φ₂ : FTy} (prec : Option ContractPrecision)
    (L : FVec Ideal ⟨2, ![M, K]⟩ φ₁) (R : FVec Ideal ⟨2, ![N, K]⟩ φ₂) (r : Fin M) (c : Fin N) :
    FloatOps.matmul (DotDims.transposedRhs M K N) prec L R (constant ⟨2, ![M, N]⟩ .f32 0x00000000#32) (ix2 r c)
      = ∑ k : Fin K, L (ix2 r k) * R (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact lhsIdx_row _ _
      | ⟨1, _⟩ => exact (lhsIdx_col _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact rhsIdx_row _ _
      | ⟨1, _⟩ => exact (rhsIdx_col _ _).trans hk)
  rw [el, er]

variable {a b : ℕ}

/-- The reduced index `0` with the row `k` put back is `(k, 0)`. -/
theorem lift_first (h : (⟨2, ![a, 1]⟩ : Shape).Reduces [0] ⟨1, ![1]⟩) (u : Fin 1) (k : Fin a) :
    h.lift (ix1 u) k = ix2 k (0 : Fin 1) :=
  funext fun c => Fin.ext (by
    match c with
    | ⟨0, _⟩ => rfl
    | ⟨1, _⟩ =>
      have h1 : ((h.lift (ix1 u) k) 1).val < 1 := idx2_lt1 _
      show ((h.lift (ix1 u) k) 1).val = 0
      omega)

/-- A column summed over its first axis from the neutral word: `∑ k, v (k, 0)`. -/
theorem colSum_apply {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k (0 : Fin 1)) :=
  (Ideal.multiReduction_add_single src acc h hφ hacc (ix1 u)).trans
    (Finset.sum_congr rfl fun k _ => congrArg src (lift_first h u k))

variable {α : Type}

/-- A `[1, 1]` value broadcast to `[a, b]` reads, everywhere, the one value. -/
theorem broadcastTo_11_ab_apply (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibGram
-- ==== Proof.LibFlatten.lean ====
/-
  Two leading axes merged into one, or one split into two, by a shape cast, read at an index written by coordinates.

  A shape cast keeps the row-major position. Between `[a, b, c]` and `[n, c]` with `n = a · b`, position
  `((i · b) + j) · c + k` is row `r = i · b + j`, column `k`: the cast in either direction pairs `(i, j, k)` with
  `(r, k)`. The merged extent is a separate letter `n` so that the lemmas apply where it is printed as one numeral.
-/
import Idealize.ShloMosaic.Lib.Pipeline.Value
import Idealize.ShloMosaic.Lib.ValueIdx

namespace Cert.LibFlatten

open Idealize.ShloMosaic Idealize.ShloMosaic.ValueIdx

variable {α : Type}

/-- An `[a, b, c]` array cast to `[n, c]` reads, at `(r, k)` with `r = i · b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` reads, at `(i, j, k)`, the operand at `(r, k)` with `r = i · b + j`. -/
theorem shapeCast_nc_abc_apply {a b c n : ℕ} (y : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ y h (ix3 i j k) = y (ix2 r k) :=
  shapeCast_apply y h _ _ (by
    rw [Shape.rowMajor_val_three, Shape.rowMajor_val_two]
    show r.val * c + k.val = (i.val * b + j.val) * c + k.val
    rw [hr])

end Cert.LibFlatten
-- ==== Proof.LibBiasLayout.lean ====
/-
  A vector laid along the last axis of a rank-3 array, read at an index written by coordinates: a shape cast
  `[c] → [1, 1, c]` (two leading unit axes added) and a broadcast `[1, 1, c] → [a, b, c]` (both filled). Together they
  are how a bias `b[None, None, :]` is added to every row of every plane. Each is the library's general lemma (a shape
  cast keeps the row-major position; a broadcast reads `0` on the operand's unit axes) at these shapes.
-/
import Idealize.ShloMosaic.Lib.Pipeline.Value
import Idealize.ShloMosaic.Lib.ValueIdx

namespace Cert.LibBiasLayout

open Idealize.ShloMosaic Idealize.ShloMosaic.ValueIdx

variable {α : Type}

/-- A `[c]` vector cast to `[1, 1, c]` reads, at `(y, z, k)`, the operand at `k`, whatever the unit coordinates. -/
theorem shapeCast_c_11c_apply {c : ℕ} (x : (⟨1, ![c]⟩ : Shape).Idx → α)
    (h : (⟨1, ![c]⟩ : Shape).ShapeCasts ⟨3, ![1, 1, c]⟩) (y z : Fin 1) (k : Fin c) :
    shapeCast ⟨3, ![1, 1, c]⟩ x h (ix3 y z k) = x (ix1 k) :=
  shapeCast_apply x h _ _ (by
    have hy : y.val = 0 := by omega
    have hz : z.val = 0 := by omega
    rw [Shape.rowMajor_val_three, Shape.rowMajor_val_one]
    show k.val = (y.val * 1 + z.val) * c + k.val
    simp only [hy, hz, Nat.zero_mul, Nat.zero_add])

/-- A `[1, 1, c]` array broadcast to `[a, b, c]` reads, at `(i, j, k)`, the operand at `(0, 0, k)`: every row of every
    plane sees the same vector. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibBiasLayout
-- ==== Proof.KPayScores.lean ====
/-
  The kernel's cross term and log-softmax, read at one row and one reference point.

  For one batch row p the kernel forms the Gram block x · yᵀ by flattening the row's points into a [2048, 1024] matrix and
  contracting both operands' last axes, turns it into distances by |a|² + |b|² − 2 a·b clamped at zero with the guarded
  square root, weighs the distances by the row's weights and sums over the row's points, divides by the clamped total
  weight, subtracts the self term, scales by −20 and takes the log-softmax over the reference points. Read at (p, m) on the
  extended reals this is logp (scoreK x y μ) m.
-/
import proofs.«119069_j71021579206985_2_alg».proof.Proof.Spec
import proofs.«119069_j71021579206985_2_alg».proof.Proof.Gen.KernelIdeal.Skeleton
import proofs.«119069_j71021579206985_2_alg».proof.Proof.LibLayout3
import proofs.«119069_j71021579206985_2_alg».proof.Proof.LibKeepdims
import proofs.«119069_j71021579206985_2_alg».proof.Proof.LibLaneSum
import proofs.«119069_j71021579206985_2_alg».proof.Proof.LibGram
import proofs.«119069_j71021579206985_2_alg».proof.Proof.LibFlatten
import proofs.«119069_j71021579206985_2_alg».proof.Proof.LibBiasLayout
import Idealize.ShloMosaic.Lib.KernelVsHost

noncomputable section

namespace Cert.Energy

open Idealize.ShloMosaic Idealize.ShloMosaic.ValueIdx Cert.KernelIdeal Cert.KernelIdeal.Gen

/-! ## General readings -/

/-- A one-bit word widened to 32 bits and converted as a signed integer is the bit as a number. -/
theorem sitofp_setWidth_bit (b : BitVec 1) : FloatOps.sitofp (F := Ideal) .f32 (b.setWidth 32) = ind b := by
  show ((((b.setWidth 32).toInt : ℝ)) : EReal) = ((b.toNat : ℝ) : EReal)
  rw [toInt_setWidth_bit]
  norm_cast

/-- The clamp, compare, select, root and bit-to-number chain on one squared distance is dist. -/
theorem dist_chain (u : EReal) :
    FloatOps.mulf (F := Ideal) (φ := .f32)
        (FloatOps.sqrt (Scalar.select (FloatOps.cmpf .ogt (FloatOps.maximumf u (Scalar.ofBits (F := Ideal) .f32 0x00000000#32)) (Scalar.ofBits (F := Ideal) .f32 0x00000000#32))
          (FloatOps.maximumf u (Scalar.ofBits (F := Ideal) .f32 0x00000000#32)) (Scalar.ofBits (F := Ideal) .f32 0x3F800000#32)))
        (FloatOps.sitofp .f32 ((FloatOps.cmpf .ogt (FloatOps.maximumf u (Scalar.ofBits (F := Ideal) .f32 0x00000000#32)) (Scalar.ofBits (F := Ideal) .f32 0x00000000#32)).setWidth 32))
      = dist u := by
  rw [sitofp_setWidth_bit]
  rfl

variable {a b c : ℕ}

/-- The index (p, m) of an [a, c] array with the middle coordinate k put back is (p, k, m). -/
theorem lift_mid (h : (⟨3, ![a, b, c]⟩ : Shape).Reduces [1] ⟨2, ![a, c]⟩) (p : Fin a) (m : Fin c) (k : Fin b) :
    h.lift (ix2 p m) k = ix3 p k m :=
  funext fun e => Fin.ext (by
    match e with
    | ⟨0, _⟩ => rfl
    | ⟨1, _⟩ => rfl
    | ⟨2, _⟩ => rfl)

/-- A sum over the middle axis of an [a, b, c] array from the zero word, at (p, m): ∑ k, src (p, k, m). -/
theorem midSum_apply {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (m : Fin c) :
    multiReduction .add [1] ⟨2, ![a, c]⟩ src acc h hφ hacc (ix2 p m) = ∑ k : Fin b, src (ix3 p k m) :=
  (Ideal.multiReduction_add_single src acc h hφ hacc (ix2 p m)).trans
    (Finset.sum_congr rfl fun k _ => congrArg src (lift_mid h p m k))

/-- A maximum along the last axis of an [a, b] array from the accumulator's word, at row p: the fold of max over the row. -/
theorem rowMaxFold_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p)) = fun k => src (ix2 p k) :=
    funext fun k => congrArg src (Cert.LibLaneSum.lift_last h p k)
  rw [e]
  rfl

/-! ## The kernel's blocks at one row and one reference point -/

/-- The Gram block, flattened, multiplied and unflattened, at (p, l, m): ∑ d, x (p, l, d) · y (m, d). -/
theorem gram_apply (v5 : FVec Ideal S8x256x1024 .bf16) (v9 : FVec Ideal S128x1024 .bf16)
    (hc1 : S8x256x1024.ShapeCasts S2048x1024) (hc2 : S2048x128.ShapeCasts S8x256x128) (p : Fin 8) (l : Fin 256) (m : Fin 128) :
    shapeCast S8x256x128 (matmul dot_S2048x1024_S128x1024_S2048x128_1_1_0_0_n_n none (shapeCast S2048x1024 v5 hc1) v9
        (constant S2048x128 .f32 0x00000000#32)) hc2 (ix3 p l m)
      = ∑ d : Fin 1024, v5 (ix3 p l d) * v9 (ix2 m d) := by
  refine (Cert.LibFlatten.shapeCast_nc_abc_apply _ hc2 p l m (⟨p.val * 256 + l.val, by omega⟩ : Fin 2048) rfl).trans ?_
  refine (Cert.LibGram.matmul_transposedRhs_zero_apply (M := 2048) (K := 1024) (N := 128) none (shapeCast S2048x1024 v5 hc1) v9
    (⟨p.val * 256 + l.val, by omega⟩ : Fin 2048) m).trans ?_
  refine Finset.sum_congr rfl fun d _ => ?_
  rw [Cert.LibFlatten.shapeCast_abc_nc_apply v5 hc1 p l d (⟨p.val * 256 + l.val, by omega⟩ : Fin 2048) rfl]

/-- The squared distance |x l|² + |y m|² − 2 · (Gram entry), with the two squared norms laid along their axes. -/
theorem sq_apply (v4 : FVec Ideal S8x256 .f32) (v8 : FVec Ideal S128 .f32) (v44 : FVec Ideal S8x256x128 .f32)
    (hc1 : S8x256.ShapeCasts S8x256x1) (hc2 : S128.ShapeCasts S1x1x128)
    (hb1 : S8x256x1.Broadcasts S8x256x128) (hb2 : S1x1x128.Broadcasts S8x256x128) (p : Fin 8) (l : Fin 256) (m : Fin 128) :
    subf (addf (broadcastTo S8x256x128 (shapeCast S8x256x1 v4 hc1) hb1) (broadcastTo S8x256x128 (shapeCast S1x1x128 v8 hc2) hb2))
        (mulf (broadcast S8x256x128 (Scalar.ofBits (F := Ideal) .f32 0x40000000#32)) v44) (ix3 p l m)
      = (v4 (ix2 p l) + v8 (ix1 m)) - c2 * v44 (ix3 p l m) := by
  show ((broadcastTo S8x256x128 (shapeCast S8x256x1 v4 hc1) hb1) (ix3 p l m)
      + (broadcastTo S8x256x128 (shapeCast S1x1x128 v8 hc2) hb2) (ix3 p l m)) - c2 * v44 (ix3 p l m) = _
  rw [Cert.LibLayout3.broadcastTo_ab1_abc_apply, Cert.LibLayout3.shapeCast_ab_ab1_apply,
    Cert.LibBiasLayout.broadcastTo_11c_abc_apply, Cert.LibBiasLayout.shapeCast_c_11c_apply]

/-- The clamp, compare, select, root and bit-to-number chain on a whole array, at an index: dist of the entry. -/
theorem distVec_apply {s : Shape} (v52 : FVec Ideal s .f32) (hlt : 1 < 32) (i : s.Idx) :
    mulf
        (sqrt (select (cmpf .ogt (maximumf v52 (broadcast s (Scalar.ofBits (F := Ideal) .f32 0x00000000#32))) (broadcast s (Scalar.ofBits (F := Ideal) .f32 0x00000000#32)))
          (maximumf v52 (broadcast s (Scalar.ofBits (F := Ideal) .f32 0x00000000#32))) (broadcast s (Scalar.ofBits (F := Ideal) .f32 0x3F800000#32))))
        (sitofp .f32 (extui 32 (cmpf .ogt (maximumf v52 (broadcast s (Scalar.ofBits (F := Ideal) .f32 0x00000000#32))) (broadcast s (Scalar.ofBits (F := Ideal) .f32 0x00000000#32))) hlt)) i
      = dist (v52 i) :=
  dist_chain (v52 i)

/-- The weighted sum over the row's points, at (p, m): ∑ l, D (p, l, m) · w (p, l). -/
theorem wsum_apply (v62 : FVec Ideal S8x256x128 .f32) (v2 : FVec Ideal S8x256 .f32)
    (hc1 : S8x256.ShapeCasts S8x256x1) (hb1 : S8x256x1.Broadcasts S8x256x128) (hr : S8x256x128.Reduces [1] S8x128)
    (hφ : FKind.Formats .f32) (hacc : (0x00000000#32 : BitVec 32) = FKind.add.neutral .f32 hφ) (p : Fin 8) (m : Fin 128) :
    multiReduction .add [1] S8x128 (mulf v62 (broadcastTo S8x256x128 (shapeCast S8x256x1 v2 hc1) hb1)) 0x00000000#32 hr hφ hacc (ix2 p m)
      = ∑ l : Fin 256, v62 (ix3 p l m) * v2 (ix2 p l) := by
  refine (midSum_apply _ _ hr hφ hacc p m).trans (Finset.sum_congr rfl fun l _ => ?_)
  show v62 (ix3 p l m) * (broadcastTo S8x256x128 (shapeCast S8x256x1 v2 hc1) hb1) (ix3 p l m) = _
  rw [Cert.LibLayout3.broadcastTo_ab1_abc_apply, Cert.LibLayout3.shapeCast_ab_ab1_apply]

/-- The score from the weighted sum A = v66 (p, m), the total weight, and the self term's numerator and denominator. -/
theorem score_apply (v66 : FVec Ideal S8x128 .f32) (v35 v37 v40 : FVec Ideal S8x1 .f32) (hb : S8x1.Broadcasts S8x128) (p : Fin 8) (m : Fin 128) :
    mulf
        (subf (broadcast S8x128 (Scalar.ofBits (F := Ideal) .f32 0x00000000#32))
          (subf
            (mulf (broadcast S8x128 (Scalar.ofBits (F := Ideal) .f32 0x40000000#32))
              (divf v66 (broadcastTo S8x128 (maximumf (broadcast S8x1 (Scalar.ofBits (F := Ideal) .f32 0x3F800000#32)) v37) hb)))
            (broadcastTo S8x128 (divf v35 v40) hb)))
        (broadcast S8x128 (Scalar.ofBits (F := Ideal) .f32 0x41A00000#32)) (ix2 p m)
      = (c0 - (c2 * Ideal.div (v66 (ix2 p m)) (max c1 (v37 (ix2 p (0 : Fin 1)))) - Ideal.div (v35 (ix2 p (0 : Fin 1))) (v40 (ix2 p (0 : Fin 1))))) * c20 := by
  show (c0 - (c2 * Ideal.div (v66 (ix2 p m)) ((broadcastTo S8x128 (maximumf (broadcast S8x1 (Scalar.ofBits (F := Ideal) .f32 0x3F800000#32)) v37) hb) (ix2 p m))
      - (broadcastTo S8x128 (divf v35 v40) hb) (ix2 p m))) * c20 = _
  rw [Cert.LibKeepdims.broadcastTo_a1_ab_apply, Cert.LibKeepdims.broadcastTo_a1_ab_apply]
  rfl

/-- The log-softmax of a row of scores, from the row maximum folded from −∞ and the row sum of the exponentials. -/
theorem softmax_apply (v78 : FVec Ideal S8x128 .f32) (hr : S8x128.Reduces [1] S8) (hc : S8.ShapeCasts S8x1) (hb : S8x1.Broadcasts S8x128)
    (hφ : FKind.Formats .f32) (haccM : (0xFF800000#32 : BitVec 32) = FKind.maximumf.neutral .f32 hφ)
    (haccA : (0x00000000#32 : BitVec 32) = FKind.add.neutral .f32 hφ)
    (s : Fin 128 → EReal) (p : Fin 8) (hs : ∀ k, v78 (ix2 p k) = s k) (m : Fin 128) :
    subf (subf v78 (broadcastTo S8x128 (shapeCast S8x1 (multiReduction .maximumf [1] S8 v78 0xFF800000#32 hr hφ haccM) hc) hb))
        (broadcastTo S8x128 (log (shapeCast S8x1 (multiReduction .add [1] S8
          (exp (subf v78 (broadcastTo S8x128 (shapeCast S8x1 (multiReduction .maximumf [1] S8 v78 0xFF800000#32 hr hφ haccM) hc) hb)))
          0x00000000#32 hr hφ haccA) hc)) hb) (ix2 p m)
      = logp s m := by
  have hB : ∀ q : Fin 128, (broadcastTo S8x128 (shapeCast S8x1 (multiReduction .maximumf [1] S8 v78 0xFF800000#32 hr hφ haccM) hc) hb) (ix2 p q)
      = rowMax s := fun q =>
    (Cert.LibKeepdims.broadcastTo_a1_ab_apply _ hb p q).trans
      ((Cert.LibKeepdims.shapeCast_a_a1_apply _ hc p (0 : Fin 1)).trans
        ((rowMaxFold_apply v78 _ hr hφ haccM p).trans
          (congrArg (fun f : Fin 128 → EReal => (Finset.univ : Finset (Fin 128)).fold max cninf f) (funext hs))))
  generalize (broadcastTo S8x128 (shapeCast S8x1 (multiReduction .maximumf [1] S8 v78 0xFF800000#32 hr hφ haccM) hc) hb) = B at hB ⊢
  show (v78 (ix2 p m) - B (ix2 p m))
      - (broadcastTo S8x128 (log (shapeCast S8x1 (multiReduction .add [1] S8 (exp (subf v78 B)) 0x00000000#32 hr hφ haccA) hc)) hb) (ix2 p m) = _
  rw [hs, hB, Cert.LibKeepdims.broadcastTo_a1_ab_apply]
  show _ - Ideal.log ((shapeCast S8x1 (multiReduction .add [1] S8 (exp (subf v78 B)) 0x00000000#32 hr hφ haccA) hc) (ix2 p (0 : Fin 1))) = _
  rw [Cert.LibKeepdims.shapeCast_a_a1_apply, Cert.LibLaneSum.rowSum_apply]
  unfold logp
  refine congrArg (fun t => (s m - rowMax s) - Ideal.log t) (Finset.sum_congr rfl fun k _ => ?_)
  show Ideal.exp (v78 (ix2 p k) - B (ix2 p k)) = _
  rw [hs, hB]

/-! ## The whole block at one row and one reference point -/

/-- The kernel's log-likelihood block at row p and reference point m is the log-softmax of the row's scores. -/
theorem pay10_apply (v2 : FVec Ideal S8x256 .f32) (v4 : FVec Ideal S8x256 .f32) (v5 : FVec Ideal S8x256x1024 .bf16) (v8 : FVec Ideal S128 .f32) (v9 : FVec Ideal S128x1024 .bf16) (v35 v37 v40 : FVec Ideal S8x1 .f32)
    (x : Fin 256 → Fin 1024 → EReal) (y : Fin 128 → Fin 1024 → EReal) (μ : Fin 256 → EReal) (p : Fin 8)
    (h2 : ∀ l : Fin 256, v2 (ix2 p l) = μ l) (h4 : ∀ l : Fin 256, v4 (ix2 p l) = sqx x l) (h5 : ∀ (l : Fin 256) (d : Fin 1024), v5 (ix3 p l d) = x l d)
    (h8 : ∀ m : Fin 128, v8 (ix1 m) = sqy y m) (h9 : ∀ (m : Fin 128) (d : Fin 1024), v9 (ix2 m d) = y m d)
    (h35 : v35 (ix2 p (0 : Fin 1)) = ∑ i : Fin 256, (∑ j : Fin 256, d1 x i j * μ j) * μ i) (h37 : v37 (ix2 p (0 : Fin 1)) = rv μ) (h40 : v40 (ix2 p (0 : Fin 1)) = max c1 (rv μ * rv μ)) (m : Fin 128) :
    k0_pay10 (F := Ideal) v2 v4 v5 v8 v9 v35 v37 v40 (ix2 p m) = logp (scoreK x y μ) m := by
  unfold k0_pay10
  refine softmax_apply _ _ _ _ _ _ _ (scoreK x y μ) p (fun k => ?_) m
  refine (score_apply _ v35 v37 v40 _ p k).trans ?_
  rw [h35, h37, h40]
  unfold scoreK eds edqK
  refine congrArg (fun t => (c0 - (c2 * Ideal.div t (max c1 (rv μ))
    - Ideal.div (∑ i : Fin 256, (∑ j : Fin 256, d1 x i j * μ j) * μ i) (max c1 (rv μ * rv μ)))) * c20) ?_
  refine (wsum_apply _ v2 _ _ _ _ _ p k).trans (Finset.sum_congr rfl fun l _ => ?_)
  rw [distVec_apply, sq_apply, gram_apply, h2, h4, h8]
  unfold d2 gxy
  refine congrArg (fun t => dist ((sqx x l + sqy y k) - c2 * t) * μ l) (Finset.sum_congr rfl fun d _ => ?_)
  rw [h5, h9]

end Cert.Energy

end
-- ==== Proof.KOut.lean ====
/-
  What the kernel body leaves in its output block, on the extended reals: at row p of the block handled at grid
  coordinate i, the log-softmax of the row's scores (the kernel's arrangement) at column `i·8 + p` — the row's own number
  in the batch —, as a function of the three input blocks.
-/
import proofs.«119069_j71021579206985_2_alg».proof.Proof.KernelIdealFrameP
import proofs.«119069_j71021579206985_2_alg».proof.Proof.KPaySelf
import proofs.«119069_j71021579206985_2_alg».proof.Proof.KPayDiag
import proofs.«119069_j71021579206985_2_alg».proof.Proof.KPayScores
import Idealize.ShloMosaic.Lib.Pipeline.Value

noncomputable section

namespace Cert.Energy

open Idealize.ShloMosaic Idealize.ShloMosaic.ValueIdx Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- Row p of the output block at grid coordinate i, from the three input blocks. -/
theorem out_apply (i : grid0.Coords) (hi : (i 0).val < 8) (x0 : Vec Ideal S8x256x1024 .f32) (x1 : Vec Ideal S128x1024 .f32)
    (x2 : Vec Ideal S8x256 .f32) (p : Fin 8) :
    Cert.KernelIdeal.GenP.out0_3 (F := Ideal) i x0 x1 x2 (ix2 p (0 : Fin 1))
      = logp (scoreK (fun l d => x0 (ix3 p l d)) (fun m d => x1 (ix2 m d)) (fun l => x2 (ix2 p l)))
          (⟨(i 0).val * 8 + p.val, by have := p.isLt; omega⟩ : Fin 128) := by
  unfold Cert.KernelIdeal.GenP.out0_3
  rw [View.canon_unit_zero hz2]
  simp only [View.ld_unit_zero (S := S8x256x1024) hz3, View.ld_unit_zero (S := S8x256) hz2, View.ld_unit_zero (S := S128x1024) hz2]
  refine (pay1_apply (i 0).val hi _ p).trans ?_
  exact pay10_apply _ _ _ _ _ _ _ _ (fun l d => x0 (ix3 p l d)) (fun m d => x1 (ix2 m d)) (fun l => x2 (ix2 p l)) p
    (fun l => congrFun (pay2_eq x2) (ix2 p l)) (fun l => pay3_apply x0 p l) (fun l d => rfl) (fun m => pay5_apply x1 m) (fun m d => rfl)
    (pay7_apply x0 x2 p) (pay8_apply x2 p) (pay9_apply x2 p) _

end Cert.Energy

end
-- ==== Proof.KTail.lean ====
/-
  The host operations after the region: the sum of the [64, 1] array of diagonal entries over both axes from the zero
  word, divided by the word of 64 and negated. On the extended reals this is minus the mean of the 64 entries: the
  sum into the rank-0 result runs over every index of the array, the zero word is 0, and an index of a [64, 1] array is
  its first coordinate.
-/
import proofs.«119069_j71021579206985_2_alg».proof.KernelIdeal
import proofs.«119069_j71021579206985_2_alg».proof.Proof.Gen.KernelIdeal
import proofs.«119069_j71021579206985_2_alg».proof.Proof.Spec
import Idealize.ShloMosaic.Lib.ValueIdx
import Idealize.ShloMosaic.PureOps.Ideal.Laws

noncomputable section

namespace Cert.Energy

open Idealize.ShloMosaic Idealize.ShloMosaic.ValueIdx Cert.KernelIdeal

/-- The sum over both axes, the division by 64 and the negation, read at the one index of the result: the loss of the
    column's entries. -/
theorem tail_read (G : FVec Ideal Cert.KernelIdeal.S64x1 .f32) :
    Host.negf (Host.divf (Host.reduceAdd (F := Ideal) G (constant (F := Ideal) Cert.KernelIdeal.S_ .f32 0x00000000#32) Cert.KernelIdeal.Facts₀.reducesTo_S64x1_S_d0_1 Cert.KernelIdeal.Facts₀.h_S_) (constant (F := Ideal) Cert.KernelIdeal.S_ .f32 0x42800000#32))
      = fun _ => loss (fun n => G (ix2 n (0 : Fin 1))) := by
  funext j
  show -(Ideal.div (Ideal.hostReduceAdd Cert.KernelIdeal.Facts₀.reducesTo_S64x1_S_d0_1 G (Ideal.ofBits .f32 0x00000000#32) j)
    (Ideal.ofBits .f32 0x42800000#32)) = _
  rw [Ideal.hostReduceAdd_total _ (fun b => b.elim0), Ideal.ofBits_zero_f32, zero_add, sum_idx2]
  unfold loss
  refine congrArg (fun t => -(Ideal.div t c64)) (Finset.sum_congr rfl fun n _ => ?_)
  exact Fin.sum_univ_one _

end Cert.Energy

end
-- ==== Proof.KFinal.lean ====
/-
  The kernel program's run, read on the extended reals: after the region the [64,1] result array holds, at row n, the
  log-softmax of row n's scores (the kernel's arrangement) at column n; the host lines after the region sum the 64
  entries, divide by 64 and negate. Point t writes rows 8t … 8t+7, each from row p of its three input blocks, which are rows
  8t+p of the argument arrays; the eight blocks cover the array.
-/
import proofs.«119069_j71021579206985_2_alg».proof.Proof.KBlocks
import proofs.«119069_j71021579206985_2_alg».proof.Proof.KOut
import proofs.«119069_j71021579206985_2_alg».proof.Proof.KTail

noncomputable section

namespace Cert.KernelIdeal.Hand

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Energy

variable (m : (ℓ : Loc nD τ sig) → Buf (Elt Ideal) ℓ) (ρ : Dev nD → PrngReg)

/-- The [64,1] result array after the region: row n's log-probability of its own column. -/
def Gfin (c : Dev nD) : FVec Ideal S64x1 .f32 :=
  fun i => Drow scoreK (Xa m c) (Ya m c) (Ma m c) ⟨(i 0).val, (i 0).isLt⟩

/-- Row p of what point t's body leaves in the output block is row 8t + p of that array. -/
theorem out_at (c : Dev nD) (t : Fin cfg0.N) (p : Fin 8) (u : Fin 1) :
    GenP.out0_3 (F := Ideal) (grid0.coords t) (iblk m c 0 t) (iblk m c 1 t) (iblk m c 2 t) (ix2 p u)
      = Gfin m c (ix2 (rowOf t p) (0 : Fin 1)) := by
  obtain ⟨-, -, -, -, -, -, -, -, -, eg⟩ := idx_facts t
  obtain rfl : u = 0 := Subsingleton.elim _ _
  refine (out_apply (grid0.coords t) (by rw [eg]; exact t_lt t) _ _ _ p).trans ?_
  show _ = logp (scoreK (xrow (Xa m c) (rowOf t p)) (ypts (Ya m c)) (mrow (Ma m c) (rowOf t p))) (col (rowOf t p))
  have hx : (fun (l : Fin 256) (d : Fin 1024) => (iblk m c 0 t : Vec Ideal S8x256x1024 .f32) (ix3 p l d)) = xrow (Xa m c) (rowOf t p) :=
    funext fun l => funext fun d => iblk0_apply m c t p l d
  have hy : (fun (k : Fin 128) (d : Fin 1024) => (iblk m c 1 t : Vec Ideal S128x1024 .f32) (ix2 k d)) = ypts (Ya m c) :=
    funext fun k => funext fun d => iblk1_apply m c t k d
  have hm : (fun (l : Fin 256) => (iblk m c 2 t : Vec Ideal S8x256 .f32) (ix2 p l)) = mrow (Ma m c) (rowOf t p) :=
    funext fun l => iblk2_apply m c t p l
  rw [hx, hy, hm]
  refine congrArg (logp _) (Fin.ext ?_)
  show (grid0.coords t 0).val * 8 + p.val = t.val * 8 + p.val
  rw [eg]

/-- WHAT POINT t WRITES BACK is block t of the result array. -/
theorem flushed_eq (c : Dev nD) (t : Fin cfg0.N) :
    (dats m 0 c).flushed 3 t = ((cfg0.win 3).blk t).view.read (Elt Ideal) (Gfin m c) := by
  show (cfg0.win 3).cut (grid0.coords t) ((dats m 0 c).after 3 t) = _
  rw [after0_3]
  funext j
  have hj0 : (j 0).val < 8 := (j 0).isLt
  have hj1 : (j 1).val < 1 := (j 1).isLt
  have hj : j = ix2 (⟨(j 0).val, hj0⟩ : Fin 8) (⟨(j 1).val, hj1⟩ : Fin 1) :=
    funext fun a => Fin.ext (by match a with | ⟨0, _⟩ => rfl | ⟨1, _⟩ => rfl)
  refine ((congrArg (fun k => GenP.out0_3 (F := Ideal) (grid0.coords t) (iblk m c 0 t) (iblk m c 1 t) (iblk m c 2 t) k) hj).trans ?_).trans
    (congrArg (fun k => Gfin m c (((cfg0.win 3).blk t).view.emb k)) hj).symm
  show _ = Gfin m c (((cfg0.win 3).blk t).view.emb (ix2 (⟨(j 0).val, hj0⟩ : Fin 8) (⟨(j 1).val, hj1⟩ : Fin 1)))
  rw [emb3]
  exact out_at m c t _ _

/-- So the result array ends holding `Gfin`: the eight blocks cover it. -/
theorem final3 (c : Dev nD) : (dats m 0 c).arrAt 3 cfg0.N = Gfin m c :=
  (dats m 0 c).arrAt_eq_of_cover 3 (Gfin m c) (fun t _ => flushed_eq m c t) cover3

/-- The program's result after the host lines that follow the region. -/
theorem result_eq (c : Dev nD) :
    Pipeline.afterTail₀ cfgs (dats m) 0 (V0 m) [hostOps1] c main_v4
      = fun _ => loss (Drow scoreK (Xa m c) (Ya m c) (Ma m c)) := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v1) = Gfin m c :=
    (Pipeline.withArrays_arr spec0 launch0.win.arr_inj c _ _ 3).trans (final3 m c)
  rw [hw]
  exact tail_read (Gfin m c)

/-- THE RUN, READ: every weakly fair execution of the program terminates with its result at minus the mean of the 64 rows'
    log-probabilities of their own columns, and the three arguments unchanged. -/
theorem run : θ_run defs (onTc (τ := τ) (main (F := Ideal))) ⟨m, fun _ => 0, ρ⟩ fun r => ∀ c : Dev nD,
      r.2.mem ((c.tc : Thread nD τ).loc main_v4) = (fun _ => loss (Drow scoreK (Xa m c) (Ya m c) (Ma m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Hand

end
-- ==== Proof.LibTrailingSums.lean ====
/-
  Host sums over trailing axes of a rank-3 array, read at coordinates, on the extended reals.

  The host's sum of an `[A,B,C]` array over its last axis, read at `(n, c)`, is the initial value plus
  `∑ k, x (n,c,k)`; its sum over the last two axes, read at `n`, is the initial value plus `∑ c, ∑ d, x (n,c,d)`.
  Both are re-indexings of the defining sum over the array indices that drop to the result index.
-/
import Idealize.ShloMosaic.PureOps.Ideal.Laws
import Idealize.ShloMosaic.Lib.ValueIdx

namespace Cert.Lib.TrailingSums

open Idealize.ShloMosaic Idealize.ShloMosaic.ValueIdx

variable {A B C : Nat}

/-- The sum over the last axis at `(n, c)`. -/
theorem sum_last_apply (h : (⟨3, ![A, B, C]⟩ : Shape).ReducesTo [2] ⟨2, ![A, B]⟩)
    (x : (⟨3, ![A, B, C]⟩ : Shape).Idx → EReal) (init : EReal) (n : Fin A) (c : Fin B) :
    Ideal.hostReduceAdd h x init (ix2 n c) = init + ∑ k : Fin C, x (ix3 n c k) := by
  unfold Ideal.hostReduceAdd
  congr 1
  have hd : ∀ i : (⟨3, ![A, B, C]⟩ : Shape).Idx, h.drop i = ix2 (i 0) (i 1) := fun i =>
    funext fun b => Fin.ext (by match b with | ⟨0, _⟩ => rfl | ⟨1, _⟩ => rfl)
  refine Finset.sum_bij' (fun i _ => (i 2 : Fin C)) (fun k _ => ix3 n c k) (fun _ _ => Finset.mem_univ _) ?_ ?_ ?_ ?_
  · intro k _
    rw [Finset.mem_filter]; exact ⟨Finset.mem_univ _, hd _⟩
  · intro i hi
    rw [Finset.mem_filter, hd i] at hi
    have h0 : i 0 = n := congrArg (fun j => j 0) hi.2
    have h1 : i 1 = c := congrArg (fun j => j 1) hi.2
    rw [← h0, ← h1]; exact (eq_ix3 i).symm
  · intro k _; rfl
  · intro i hi
    rw [Finset.mem_filter, hd i] at hi
    have h0 : i 0 = n := congrArg (fun j => j 0) hi.2
    have h1 : i 1 = c := congrArg (fun j => j 1) hi.2
    rw [← h0, ← h1]; exact congrArg x (eq_ix3 i)

/-- The sum over the last two axes at `n`. -/
theorem sum_last_two_apply (h : (⟨3, ![A, B, C]⟩ : Shape).ReducesTo [1, 2] ⟨1, ![A]⟩)
    (x : (⟨3, ![A, B, C]⟩ : Shape).Idx → EReal) (init : EReal) (n : Fin A) :
    Ideal.hostReduceAdd h x init (ix1 n) = init + ∑ c : Fin B, ∑ d : Fin C, x (ix3 n c d) := by
  unfold Ideal.hostReduceAdd
  congr 1
  have hd : ∀ i : (⟨3, ![A, B, C]⟩ : Shape).Idx, h.drop i = ix1 (i 0) := fun i =>
    funext fun b => Fin.ext (by match b with | ⟨0, _⟩ => rfl)
  rw [← Fintype.sum_prod_type' (f := fun (c : Fin B) (d : Fin C) => x (ix3 n c d))]
  refine Finset.sum_bij' (fun i _ => ((i 1 : Fin B), (i 2 : Fin C))) (fun p _ => ix3 n p.1 p.2)
    (fun _ _ => Finset.mem_univ _) ?_ ?_ ?_ ?_
  · intro p _
    rw [Finset.mem_filter]; exact ⟨Finset.mem_univ _, hd _⟩
  · intro i hi
    rw [Finset.mem_filter, hd i] at hi
    have h0 : i 0 = n := congrArg (fun j => j 0) hi.2
    rw [← h0]; exact (eq_ix3 i).symm
  · intro p _; rfl
  · intro i hi
    rw [Finset.mem_filter, hd i] at hi
    have h0 : i 0 = n := congrArg (fun j => j 0) hi.2
    rw [← h0]; exact congrArg x (eq_ix3 i)

end Cert.Lib.TrailingSums
-- ==== Proof.RefScores.lean ====
/-
  The reference's scores, read at `(n, m)`, are the score `scoreR` of row `n` against reference point `m`.

  Row `n` of the first argument is the row's 256 points, the second argument the 128 reference points, row `n` of the
  third argument (a mask of integers, read as numbers) the row's weights. The stages are read outermost first, each at
  an index written by its coordinates: the squared norms and the two Gram arrays as sums over the 1024 dimensions
  (the cross Gram array has the reference point as the left factor, so its factors are swapped under the sum); the
  squared distances in Gram form, clamped at zero, and their guarded square roots, which are `dist`; the weighted sums
  over the points (one axis for the cross term, two axes for the self term and for the sum of the weight products),
  each a host sum from the zero word, hence the plain sum; the two clamps at one; the two quotients; and the final
  `((2 · cross − self) · 20) · (−1)`.
-/
import proofs.«119069_j71021579206985_2_alg».proof.Proof.Spec
import proofs.«119069_j71021579206985_2_alg».proof.Proof.RefReadP
import proofs.«119069_j71021579206985_2_alg».proof.Proof.LibTrailingSums

noncomputable section

namespace Cert.Energy

open Idealize.ShloMosaic Idealize.ShloMosaic.ValueIdx Cert.ReferenceIdeal Cert.ReferenceIdeal.Gen Cert.ReferenceIdeal.ReadP

/-- Two indices of a rank-1, rank-2 or rank-3 array are equal when their coordinates are. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

namespace RefScores

section stages

variable (x0 : (⟨Cert.ReferenceIdeal.S64x256x1024, .f32⟩ : BufTy).Contents (Elt Ideal))
  (x1 : (⟨Cert.ReferenceIdeal.S128x1024, .f32⟩ : BufTy).Contents (Elt Ideal))
  (x2 : (⟨Cert.ReferenceIdeal.S64x256, .i32⟩ : BufTy).Contents (Elt Ideal))

/-! ### Squared norms and inner products -/

/-- The squared norm of point `l` of row `n` (the cross term's copy). -/
theorem ref_sqx (n : Fin 64) (l : Fin 256) :
    val_main_v2 (F := Ideal) x0 (ix2 n l) = sqx (fun l d => x0 (ix3 n l d)) l := by
  rw [val_main_v2_apply]
  show Ideal.ofBits .f32 0x00000000#32 + _ = _
  rw [Ideal.ofBits_zero_f32, zero_add]
  refine Finset.sum_congr rfl fun k _ => ?_
  have e : idx_main_v2 (ix2 n l) k = ix3 n l k := by idx3
  rw [e]; rfl

/-- The squared norm of point `l` of row `n` (the self term's copy). -/
theorem ref_sqx' (n : Fin 64) (l : Fin 256) :
    val_main_v33 (F := Ideal) x0 (ix2 n l) = sqx (fun l d => x0 (ix3 n l d)) l := by
  rw [val_main_v33_apply]
  show Ideal.ofBits .f32 0x00000000#32 + _ = _
  rw [Ideal.ofBits_zero_f32, zero_add]
  refine Finset.sum_congr rfl fun k _ => ?_
  have e : idx_main_v33 (ix2 n l) k = ix3 n l k := by idx3
  rw [e]; rfl

/-- The squared norm of reference point `m`. -/
theorem ref_sqy (m : Fin 128) :
    val_main_v4 (F := Ideal) x1 (ix1 m) = sqy (fun m' d => x1 (ix2 m' d)) m := by
  rw [val_main_v4_apply]
  show Ideal.ofBits .f32 0x00000000#32 + _ = _
  rw [Ideal.ofBits_zero_f32, zero_add]
  refine Finset.sum_congr rfl fun k _ => ?_
  have e : idx_main_v4 (ix1 m) k = ix2 m k := by idx2
  rw [e]; rfl

/-- The inner product of point `l` of row `n` with reference point `m`; the product is taken with the reference
    point as the left factor, so the factors are swapped under the sum. -/
theorem ref_gxy (n : Fin 64) (m : Fin 128) (l : Fin 256) :
    val_main_v5 (F := Ideal) x0 x1 (ix3 m n l) = gxy (fun l d => x0 (ix3 n l d)) (fun m' d => x1 (ix2 m' d)) l m := by
  rw [val_main_v5_apply]
  refine Finset.sum_congr rfl fun k _ => ?_
  have el : lidx_main_v5 (ix3 m n l) k = ix2 m k := by idx2
  have er : ridx_main_v5 (ix3 m n l) k = ix3 n l k := by idx3
  rw [el, er]; exact mul_comm _ _

/-- The inner product of points `i` and `j` of row `n`. -/
theorem ref_gxx (n : Fin 64) (i j : Fin 256) :
    val_main_v34 (F := Ideal) x0 (ix3 n i j) = gxx (fun l d => x0 (ix3 n l d)) i j := by
  rw [val_main_v34_apply]
  refine Finset.sum_congr rfl fun k _ => ?_
  have el : lidx_main_v34 (ix3 n i j) k = ix3 n i k := by idx3
  have er : ridx_main_v34 (ix3 n i j) k = ix3 n j k := by idx3
  rw [el, er]

/-! ### The distance from a point of the row to a reference point -/

/-- The row's squared norms laid along the `(n, m, l)` array. -/
theorem ref_v9 (n : Fin 64) (m : Fin 128) (l : Fin 256) :
    val_main_v9 (F := Ideal) x0 (ix3 n m l) = sqx (fun l d => x0 (ix3 n l d)) l := by
  have e9 : idx_main_v9 (ix3 n m l) = ix3 n (0 : Fin 1) l := by idx3
  have e7 : idx_main_v7 (ix3 n (0 : Fin 1) l) = ix2 n l := by idx2
  rw [val_main_v9_apply, e9, val_main_v7_apply, e7]
  exact ref_sqx x0 n l

/-- The reference points' squared norms laid along the `(n, m, l)` array. -/
theorem ref_v10 (n : Fin 64) (m : Fin 128) (l : Fin 256) :
    val_main_v10 (F := Ideal) x1 (ix3 n m l) = sqy (fun m' d => x1 (ix2 m' d)) m := by
  have e10 : idx_main_v10 (ix3 n m l) = ix3 (0 : Fin 1) m (0 : Fin 1) := by idx3
  have e8 : idx_main_v8 (ix3 (0 : Fin 1) m (0 : Fin 1)) = ix1 m := by idx1
  rw [val_main_v10_apply, e10, val_main_v8_apply, e8]
  exact ref_sqy x1 m

/-- The inner products, transposed to the `(n, m, l)` array. -/
theorem ref_v6 (n : Fin 64) (m : Fin 128) (l : Fin 256) :
    val_main_v6 (F := Ideal) x0 x1 (ix3 n m l) = gxy (fun l d => x0 (ix3 n l d)) (fun m' d => x1 (ix2 m' d)) l m := by
  have e6 : idx_main_v6 (ix3 n m l) = ix3 m n l := by idx3
  rw [val_main_v6_apply, e6]
  exact ref_gxy x0 x1 n m l

/-- The squared distance in its Gram form. -/
theorem ref_u2 (n : Fin 64) (m : Fin 128) (l : Fin 256) :
    val_main_v14 (F := Ideal) x0 x1 (ix3 n m l)
      = (sqx (fun l d => x0 (ix3 n l d)) l + sqy (fun m' d => x1 (ix2 m' d)) m) - c2 * gxy (fun l d => x0 (ix3 n l d)) (fun m' d => x1 (ix2 m' d)) l m := by
  have h12 : val_main_v12 (F := Ideal) (ix3 n m l) = c2 := by rw [val_main_v12_apply]; rfl
  rw [val_main_v14_apply, val_main_v11_apply, val_main_v13_apply, ref_v9 x0 n m l, ref_v10 x1 n m l, h12,
    ref_v6 x0 x1 n m l]
  rfl

/-- The distance from point `l` of row `n` to reference point `m`. -/
theorem ref_d2 (n : Fin 64) (m : Fin 128) (l : Fin 256) :
    val_main_v22 (F := Ideal) x0 x1 (ix3 n m l) = d2 (fun l d => x0 (ix3 n l d)) (fun m' d => x1 (ix2 m' d)) l m := by
  have h15 : val_main_v15 (F := Ideal) (ix3 n m l) = c0 := by rw [val_main_v15_apply]; rfl
  have h17 : val_main_v17 (F := Ideal) (ix3 n m l) = c0 := by rw [val_main_v17_apply]; rfl
  have hc : val_main_call0_v1 (F := Ideal) (ix3 n m l) = c1 := by rw [val_main_call0_v1_apply]; rfl
  have h16 : val_main_v16 (F := Ideal) x0 x1 (ix3 n m l)
      = max ((sqx (fun l d => x0 (ix3 n l d)) l + sqy (fun m' d => x1 (ix2 m' d)) m) - c2 * gxy (fun l d => x0 (ix3 n l d)) (fun m' d => x1 (ix2 m' d)) l m) c0 := by
    rw [val_main_v16_apply, ref_u2 x0 x1 n m l, h15]; rfl
  have h18 : val_main_v18 (F := Ideal) x0 x1 (ix3 n m l)
      = pos (max ((sqx (fun l d => x0 (ix3 n l d)) l + sqy (fun m' d => x1 (ix2 m' d)) m) - c2 * gxy (fun l d => x0 (ix3 n l d)) (fun m' d => x1 (ix2 m' d)) l m) c0) := by
    rw [val_main_v18_apply, h16, h17]; rfl
  rw [val_main_v22_apply, val_main_v20_apply, val_main_v21_apply, val_main_v19_apply, h18, h16, hc]
  rfl

/-! ### The distance between two points of the row -/

/-- The row's squared norms laid along the rows of the `(n, i, j)` array. -/
theorem ref_v37 (n : Fin 64) (i j : Fin 256) :
    val_main_v37 (F := Ideal) x0 (ix3 n i j) = sqx (fun l d => x0 (ix3 n l d)) i := by
  have e37 : idx_main_v37 (ix3 n i j) = ix3 n i (0 : Fin 1) := by idx3
  have e35 : idx_main_v35 (ix3 n i (0 : Fin 1)) = ix2 n i := by idx2
  rw [val_main_v37_apply, e37, val_main_v35_apply, e35]
  exact ref_sqx' x0 n i

/-- The row's squared norms laid along the columns of the `(n, i, j)` array. -/
theorem ref_v38 (n : Fin 64) (i j : Fin 256) :
    val_main_v38 (F := Ideal) x0 (ix3 n i j) = sqx (fun l d => x0 (ix3 n l d)) j := by
  have e38 : idx_main_v38 (ix3 n i j) = ix3 n (0 : Fin 1) j := by idx3
  have e36 : idx_main_v36 (ix3 n (0 : Fin 1) j) = ix2 n j := by idx2
  rw [val_main_v38_apply, e38, val_main_v36_apply, e36]
  exact ref_sqx' x0 n j

/-- The squared distance in its Gram form. -/
theorem ref_u1 (n : Fin 64) (i j : Fin 256) :
    val_main_v42 (F := Ideal) x0 (ix3 n i j) = (sqx (fun l d => x0 (ix3 n l d)) i + sqx (fun l d => x0 (ix3 n l d)) j) - c2 * gxx (fun l d => x0 (ix3 n l d)) i j := by
  have h40 : val_main_v40 (F := Ideal) (ix3 n i j) = c2 := by rw [val_main_v40_apply]; rfl
  rw [val_main_v42_apply, val_main_v39_apply, val_main_v41_apply, ref_v37 x0 n i j, ref_v38 x0 n i j, h40,
    ref_gxx x0 n i j]
  rfl

/-- The distance between points `i` and `j` of row `n`. -/
theorem ref_d1 (n : Fin 64) (i j : Fin 256) :
    val_main_v50 (F := Ideal) x0 (ix3 n i j) = d1 (fun l d => x0 (ix3 n l d)) i j := by
  have h43 : val_main_v43 (F := Ideal) (ix3 n i j) = c0 := by rw [val_main_v43_apply]; rfl
  have h45 : val_main_v45 (F := Ideal) (ix3 n i j) = c0 := by rw [val_main_v45_apply]; rfl
  have hc : val_main_call2_v1 (F := Ideal) (ix3 n i j) = c1 := by rw [val_main_call2_v1_apply]; rfl
  have h44 : val_main_v44 (F := Ideal) x0 (ix3 n i j) = max ((sqx (fun l d => x0 (ix3 n l d)) i + sqx (fun l d => x0 (ix3 n l d)) j) - c2 * gxx (fun l d => x0 (ix3 n l d)) i j) c0 := by
    rw [val_main_v44_apply, ref_u1 x0 n i j, h43]; rfl
  have h46 : val_main_v46 (F := Ideal) x0 (ix3 n i j) = pos (max ((sqx (fun l d => x0 (ix3 n l d)) i + sqx (fun l d => x0 (ix3 n l d)) j) - c2 * gxx (fun l d => x0 (ix3 n l d)) i j) c0) := by
    rw [val_main_v46_apply, h44, h45]; rfl
  rw [val_main_v50_apply, val_main_v48_apply, val_main_v49_apply, val_main_v47_apply, h46, h44, hc]
  rfl

/-! ### The weights, the cross term and the self term -/

/-- The weight of point `l` of row `n`: the mask entry as a number. -/
theorem ref_mu (n : Fin 64) (l : Fin 256) :
    val_main_v0 (F := Ideal) x2 (ix2 n l) = (fun l => FloatOps.sitofp (F := Ideal) .f32 (x2 (ix2 n l))) l := rfl

/-- The total weight of row `n`. -/
theorem ref_rv (n : Fin 64) :
    val_main_v26 (F := Ideal) x2 (ix1 n) = rv (fun l => FloatOps.sitofp (F := Ideal) .f32 (x2 (ix2 n l))) := by
  rw [val_main_v26_apply]
  show Ideal.ofBits .f32 0x00000000#32 + _ = _
  rw [Ideal.ofBits_zero_f32, zero_add]
  refine Finset.sum_congr rfl fun k _ => ?_
  have e : idx_main_v26 (ix1 n) k = ix2 n k := by idx2
  rw [e]; rfl

/-- The cross term's denominator: the total weight clamped below at one. -/
theorem ref_v30 (n : Fin 64) (m : Fin 128) :
    val_main_v30 (F := Ideal) x2 (ix2 n m) = max c1 (rv (fun l => FloatOps.sitofp (F := Ideal) .f32 (x2 (ix2 n l)))) := by
  have e30 : idx_main_v30 (ix2 n m) = ix2 n (0 : Fin 1) := by idx2
  have e29 : idx_main_v29 (ix2 n (0 : Fin 1)) = ix1 n := by idx1
  have hc : val_main_call1_v1 (F := Ideal) (ix1 n) = c1 := by rw [val_main_call1_v1_apply]; rfl
  rw [val_main_v30_apply, e30, val_main_v29_apply, e29, val_main_v27_apply, hc, ref_rv x2 n]
  rfl

/-- The weighted distance from point `l` of row `n` to reference point `m`. -/
theorem ref_v25 (n : Fin 64) (m : Fin 128) (l : Fin 256) :
    val_main_v25 (F := Ideal) x0 x1 x2 (ix3 n m l) = d2 (fun l d => x0 (ix3 n l d)) (fun m' d => x1 (ix2 m' d)) l m * (fun l => FloatOps.sitofp (F := Ideal) .f32 (x2 (ix2 n l))) l := by
  have e24 : idx_main_v24 (ix3 n m l) = ix3 n (0 : Fin 1) l := by idx3
  have e23 : idx_main_v23 (ix3 n (0 : Fin 1) l) = ix2 n l := by idx2
  rw [val_main_v25_apply, ref_d2 x0 x1 n m l, val_main_v24_apply, e24, val_main_v23_apply, e23]
  rfl

/-- The cross term of row `n` against reference point `m`. -/
theorem ref_eds (n : Fin 64) (m : Fin 128) :
    val_main_v31 (F := Ideal) x0 x1 x2 (ix2 n m) = eds (fun l d => x0 (ix3 n l d)) (fun m' d => x1 (ix2 m' d)) (fun l => FloatOps.sitofp (F := Ideal) .f32 (x2 (ix2 n l))) m := by
  have h28 : val_main_v28 (F := Ideal) x0 x1 x2 (ix2 n m) = ∑ l : Fin 256, d2 (fun l d => x0 (ix3 n l d)) (fun m' d => x1 (ix2 m' d)) l m * (fun l => FloatOps.sitofp (F := Ideal) .f32 (x2 (ix2 n l))) l := by
    rw [val_main_v28_apply]
    show Ideal.ofBits .f32 0x00000000#32 + _ = _
    rw [Ideal.ofBits_zero_f32, zero_add]
    refine Finset.sum_congr rfl fun k _ => ?_
    have e : idx_main_v28 (ix2 n m) k = ix3 n m k := by idx3
    rw [e]; exact ref_v25 x0 x1 x2 n m k
  rw [val_main_v31_apply, h28, ref_v30 x2 n m]
  rfl

/-- The product of the weights of points `i` and `j` of row `n`. -/
theorem ref_v55 (n : Fin 64) (i j : Fin 256) :
    val_main_v55 (F := Ideal) x2 (ix3 n i j) = (fun l => FloatOps.sitofp (F := Ideal) .f32 (x2 (ix2 n l))) i * (fun l => FloatOps.sitofp (F := Ideal) .f32 (x2 (ix2 n l))) j := by
  have e53 : idx_main_v53 (ix3 n i j) = ix3 n i (0 : Fin 1) := by idx3
  have e51 : idx_main_v51 (ix3 n i (0 : Fin 1)) = ix2 n i := by idx2
  have e54 : idx_main_v54 (ix3 n i j) = ix3 n (0 : Fin 1) j := by idx3
  have e52 : idx_main_v52 (ix3 n (0 : Fin 1) j) = ix2 n j := by idx2
  rw [val_main_v55_apply, val_main_v53_apply, e53, val_main_v51_apply, e51, val_main_v54_apply, e54,
    val_main_v52_apply, e52]
  rfl

/-- The weighted distance between points `i` and `j` of row `n`. -/
theorem ref_v56 (n : Fin 64) (i j : Fin 256) :
    val_main_v56 (F := Ideal) x0 x2 (ix3 n i j) = d1 (fun l d => x0 (ix3 n l d)) i j * ((fun l => FloatOps.sitofp (F := Ideal) .f32 (x2 (ix2 n l))) i * (fun l => FloatOps.sitofp (F := Ideal) .f32 (x2 (ix2 n l))) j) := by
  rw [val_main_v56_apply, ref_d1 x0 n i j, ref_v55 x2 n i j]
  rfl

/-- The self term's numerator: the double sum of the weighted distances. -/
theorem ref_v57 (n : Fin 64) :
    val_main_v57 (F := Ideal) x0 x2 (ix1 n)
      = ∑ i : Fin 256, ∑ j : Fin 256, d1 (fun l d => x0 (ix3 n l d)) i j * ((fun l => FloatOps.sitofp (F := Ideal) .f32 (x2 (ix2 n l))) i * (fun l => FloatOps.sitofp (F := Ideal) .f32 (x2 (ix2 n l))) j) := by
  unfold val_main_v57
  generalize hy : val_main_v56 (F := Ideal) x0 x2 = y
  simp only [Host.reduceAdd, Ideal.hostReduceAdd_def]
  refine (Cert.Lib.TrailingSums.sum_last_two_apply reducesTo_S64x256x256_S64_d1_2 y _ n).trans ?_
  show Ideal.ofBits .f32 0x00000000#32 + _ = _
  rw [Ideal.ofBits_zero_f32, zero_add]
  refine Finset.sum_congr rfl fun i _ => Finset.sum_congr rfl fun j _ => ?_
  rw [← hy]; exact ref_v56 x0 x2 n i j

/-- The self term's denominator before the clamp: the double sum of the products of the weights. -/
theorem ref_v58 (n : Fin 64) :
    val_main_v58 (F := Ideal) x2 (ix1 n) = ∑ i : Fin 256, ∑ j : Fin 256, (fun l => FloatOps.sitofp (F := Ideal) .f32 (x2 (ix2 n l))) i * (fun l => FloatOps.sitofp (F := Ideal) .f32 (x2 (ix2 n l))) j := by
  unfold val_main_v58
  generalize hy : val_main_v55 (F := Ideal) x2 = y
  simp only [Host.reduceAdd, Ideal.hostReduceAdd_def]
  refine (Cert.Lib.TrailingSums.sum_last_two_apply reducesTo_S64x256x256_S64_d1_2 y _ n).trans ?_
  show Ideal.ofBits .f32 0x00000000#32 + _ = _
  rw [Ideal.ofBits_zero_f32, zero_add]
  refine Finset.sum_congr rfl fun i _ => Finset.sum_congr rfl fun j _ => ?_
  rw [← hy]; exact ref_v55 x2 n i j

/-- The self term of row `n`, as one double sum. -/
theorem ref_edqR (n : Fin 64) :
    val_main_v60 (F := Ideal) x0 x2 (ix1 n) = edqR (fun l d => x0 (ix3 n l d)) (fun l => FloatOps.sitofp (F := Ideal) .f32 (x2 (ix2 n l))) := by
  have hc : val_main_call3_v1 (F := Ideal) (ix1 n) = c1 := by rw [val_main_call3_v1_apply]; rfl
  rw [val_main_v60_apply, ref_v57 x0 x2 n, val_main_v59_apply, hc, ref_v58 x2 n]
  rfl

end stages

/-! ### The scores -/

/-- The reference's score of row `n` against reference point `m`, given the self term of row `n`. -/
theorem ref_scores_of (x0 : (⟨Cert.ReferenceIdeal.S64x256x1024, .f32⟩ : BufTy).Contents (Elt Ideal)) (x1 : (⟨Cert.ReferenceIdeal.S128x1024, .f32⟩ : BufTy).Contents (Elt Ideal)) (x2 : (⟨Cert.ReferenceIdeal.S64x256, .i32⟩ : BufTy).Contents (Elt Ideal)) (n : Fin 64) (m : Fin 128)
    (hq : Cert.ReferenceIdeal.ReadP.val_main_v60 (F := Ideal) x0 x2 (ix1 n) = edqR (fun l d => x0 (ix3 n l d)) (fun l => FloatOps.sitofp (F := Ideal) .f32 (x2 (ix2 n l)))) :
    Cert.ReferenceIdeal.ReadP.val_main_v69 (F := Ideal) x0 x1 x2 (ix2 n m)
      = scoreR (fun l d => x0 (ix3 n l d)) (fun m' d => x1 (ix2 m' d)) (fun l => FloatOps.sitofp (F := Ideal) .f32 (x2 (ix2 n l))) m := by
  have h61 : val_main_v61 (F := Ideal) (ix2 n m) = c2 := by rw [val_main_v61_apply]; rfl
  have h66 : val_main_v66 (F := Ideal) (ix2 n m) = c20 := by rw [val_main_v66_apply]; rfl
  have h68 : val_main_v68 (F := Ideal) (ix2 n m) = cneg1 := by rw [val_main_v68_apply]; rfl
  have e64 : idx_main_v64 (ix2 n m) = ix2 n (0 : Fin 1) := by idx2
  have e63 : idx_main_v63 (ix2 n (0 : Fin 1)) = ix1 n := by idx1
  rw [val_main_v69_apply, val_main_v67_apply, val_main_v65_apply, val_main_v62_apply, h61, h66, h68,
    ref_eds x0 x1 x2 n m, val_main_v64_apply, e64, val_main_v63_apply, e63, hq]
  rfl

/-- The reference's score of row `n` against reference point `m`. -/
theorem ref_scores (x0 : (⟨Cert.ReferenceIdeal.S64x256x1024, .f32⟩ : BufTy).Contents (Elt Ideal)) (x1 : (⟨Cert.ReferenceIdeal.S128x1024, .f32⟩ : BufTy).Contents (Elt Ideal)) (x2 : (⟨Cert.ReferenceIdeal.S64x256, .i32⟩ : BufTy).Contents (Elt Ideal)) (n : Fin 64) (m : Fin 128) :
    Cert.ReferenceIdeal.ReadP.val_main_v69 (F := Ideal) x0 x1 x2 (ix2 n m)
      = scoreR (fun l d => x0 (ix3 n l d)) (fun m' d => x1 (ix2 m' d)) (fun l => FloatOps.sitofp (F := Ideal) .f32 (x2 (ix2 n l))) m :=
  ref_scores_of x0 x1 x2 n m (ref_edqR x0 x2 n)

end RefScores

/-! ### The cross term -/

/-- The reference's cross term of row `n` against reference point `m`. -/
theorem ref_eds (x0 : (⟨Cert.ReferenceIdeal.S64x256x1024, .f32⟩ : BufTy).Contents (Elt Ideal)) (x1 : (⟨Cert.ReferenceIdeal.S128x1024, .f32⟩ : BufTy).Contents (Elt Ideal)) (x2 : (⟨Cert.ReferenceIdeal.S64x256, .i32⟩ : BufTy).Contents (Elt Ideal)) (n : Fin 64) (m : Fin 128) :
    Cert.ReferenceIdeal.ReadP.val_main_v31 (F := Ideal) x0 x1 x2 (ix2 n m)
      = eds (fun l d => x0 (ix3 n l d)) (fun m' d => x1 (ix2 m' d)) (fun l => FloatOps.sitofp (F := Ideal) .f32 (x2 (ix2 n l))) m :=
  RefScores.ref_eds x0 x1 x2 n m

end Cert.Energy

end
-- ==== Proof.RefTail.lean ====
/-
  The reference's tail, from its scores on.

  The scores form a 64 × 128 table `S`. The program takes the log-softmax of every row — the row's maximum, folded
  from −∞ over the 128 columns and then once more compared with −∞; the scores less that maximum; the logarithm of
  the sum of their exponentials subtracted — then reads the diagonal entry `(n, n)` of each of the 64 rows through a
  gather whose start indices are two copies of the row numbers (each passed through the map that adds the axis
  extent to a negative index, which leaves a row number alone), sums the 64 entries, divides by 64 and negates.

  Read at an index, stage by stage:
    · a fold of `max` that starts from −∞ is at least −∞, so the second comparison with −∞ changes nothing and the
      subtracted value is `rowMax` of the row;
    · each sum on the host is the word of zero plus the sum, and the word of zero is 0;
    · a row number below 64 is non-negative as a signed 32-bit word and reads back as itself, and clamping it into
      `[0, 63]` or `[0, 127]` leaves it, so the gathered entry at `n` is the log-softmax at `(n, n)`;
    · a sum over the rank-1 index set is the sum over its one coordinate.
  Together: the result is `loss` of the diagonal of `logp` of the rows of scores.
-/
import proofs.«119069_j71021579206985_2_alg».proof.Proof.Spec
import proofs.«119069_j71021579206985_2_alg».proof.Proof.RefReadP
import proofs.«119069_j71021579206985_2_alg».proof.Proof.LibIdxSums

noncomputable section

namespace Cert.Energy

open Cert.ReferenceIdeal Cert.ReferenceIdeal.Gen Cert.ReferenceIdeal.ReadP Idealize.ShloMosaic Idealize.ShloMosaic.ValueIdx

/-! The steps, kept in a namespace of their own; the result `ref_tail` follows it. -/
namespace RefTail

/-- A row index below 64 is not negative as a signed 32-bit word. -/
theorem slt_zero_word (n : Fin 64) : IntOp.cmpi .slt (BitVec.ofNat 32 n.val) 0#32 = 0#1 := by
  revert n; decide

/-- Read signed, the word of a row index below 64 is that index. -/
theorem toInt_word (n : Fin 64) : (BitVec.ofNat 32 n.val).toInt.toNat = n.val := by
  revert n; decide

/-- The source index over row `n` with column `k` inserted is `(n, k)`. -/
theorem lift_row (h : S64x128.Reduces [1] S64) (n : Fin 64) (k : Fin 128) :
    h.lift (ix1 n) k = ix2 n k := by
  funext c
  apply Fin.ext
  match c with
  | ⟨0, _⟩ => rfl
  | ⟨1, _⟩ => rfl

/-- The reduction by maximum over the columns, from the word of −∞, is the row's maximum. -/
theorem rowmax_apply (S : S64x128.Idx → EReal) (n : Fin 64) :
    Host.reduce (FloatOps.maximumf (F := Ideal) (φ := .f32)) S (val_main_call4_cst (F := Ideal)) reducesTo_S64x128_S64_d1 h_S_ (ix1 n)
      = rowMax (fun m => S (ix2 n m)) := by
  have h : S64x128.Reduces [1] S64 := by decide
  refine (Host.reduce_eq_fold_single _ S _ reducesTo_S64x128_S64_d1 h h_S_ (ix1 n)).trans ?_
  unfold rowMax
  have : (S ∘ h.lift (ix1 n)) = fun m : Fin 128 => S (ix2 n m) := funext fun k => congrArg S (lift_row h n k)
  rw [this]
  rfl

/-- A fold of `max` is at least the value it starts from. -/
theorem cninf_le_rowMax (s : Fin 128 → EReal) : cninf ≤ rowMax s :=
  (Finset.le_fold_max _).2 (Or.inl le_rfl)

section softmax
variable (x0 : (⟨S64x256x1024, .f32⟩ : BufTy).Contents (Elt Ideal)) (x1 : (⟨S128x1024, .f32⟩ : BufTy).Contents (Elt Ideal)) (x2 : (⟨S64x256, .i32⟩ : BufTy).Contents (Elt Ideal))

/-- The maximum the log-softmax subtracts, at row `n`: taking `max` with −∞ once more changes nothing. -/
theorem v2_row (n : Fin 64) :
    val_main_call4_v2 (F := Ideal) x0 x1 x2 (ix1 n)
      = rowMax (fun m => val_main_v69 (F := Ideal) x0 x1 x2 (ix2 n m)) := by
  rw [val_main_call4_v2_apply, val_main_call4_v1_apply, val_main_call4_cst_0_apply]
  unfold val_main_call4_v0
  rw [rowmax_apply]
  show max cninf (rowMax _) = rowMax _
  exact max_eq_right (cninf_le_rowMax _)

/-- The shifted score at `(n, m)`. -/
theorem v5_apply (n : Fin 64) (m : Fin 128) :
    val_main_call4_v5 (F := Ideal) x0 x1 x2 (ix2 n m)
      = val_main_v69 (F := Ideal) x0 x1 x2 (ix2 n m) - rowMax (fun k => val_main_v69 (F := Ideal) x0 x1 x2 (ix2 n k)) := by
  rw [val_main_call4_v5_apply, val_main_call4_v4_apply, val_main_call4_v3_apply]
  have e : idx_main_call4_v3 (idx_main_call4_v4 (ix2 n m)) = ix1 n := by
    funext a; match a with | ⟨0, _⟩ => rfl
  rw [e, v2_row]
  rfl

/-- The sum of exponentials of row `n`. -/
theorem v7_row (n : Fin 64) :
    val_main_call4_v7 (F := Ideal) x0 x1 x2 (ix1 n)
      = ∑ k : Fin 128, Ideal.exp (val_main_v69 (F := Ideal) x0 x1 x2 (ix2 n k)
          - rowMax (fun k => val_main_v69 (F := Ideal) x0 x1 x2 (ix2 n k))) := by
  rw [val_main_call4_v7_apply, val_main_call4_cst_1_apply]
  show Ideal.ofBits .f32 0x00000000#32 + _ = _
  rw [Ideal.ofBits_zero_f32, zero_add]
  refine Finset.sum_congr rfl fun k _ => ?_
  have e : idx_main_call4_v7 (ix1 n) k = ix2 n k := by
    funext a; match a with | ⟨0, _⟩ => rfl | ⟨1, _⟩ => rfl
  rw [e, val_main_call4_v6_apply, v5_apply]
  rfl

/-- The log-softmax of the scores at `(n, m)`. -/
theorem v70_apply (n : Fin 64) (m : Fin 128) :
    val_main_v70 (F := Ideal) x0 x1 x2 (ix2 n m)
      = logp (fun k => val_main_v69 (F := Ideal) x0 x1 x2 (ix2 n k)) m := by
  rw [val_main_v70_apply, val_main_call4_v10_apply, val_main_call4_v9_apply, val_main_call4_v8_apply]
  have e : idx_main_call4_v8 (idx_main_call4_v10 (ix2 n m)) = ix1 n := by
    funext a; match a with | ⟨0, _⟩ => rfl
  rw [e, v7_row, v5_apply]
  rfl

end softmax

section gather

/-- The first wrapped row index at `n`: `n` is not negative, so the select keeps the iota's word. -/
theorem v77_row (n : Fin 64) : val_main_v77 (F := Ideal) (ix1 n) = BitVec.ofNat 32 n.val := by
  have h73 : val_main_v73 (F := Ideal) (ix1 n) = 0#32 := by rw [val_main_v73_apply, val_main_c_apply]
  have h71 : val_main_v71 (F := Ideal) (ix1 n) = BitVec.ofNat 32 n.val := rfl
  rw [val_main_v77_apply, val_main_v74_apply, h71, h73, slt_zero_word, select_zero]

/-- The second wrapped index at `n`, likewise. -/
theorem v82_row (n : Fin 64) : val_main_v82 (F := Ideal) (ix1 n) = BitVec.ofNat 32 n.val := by
  have h78 : val_main_v78 (F := Ideal) (ix1 n) = 0#32 := by rw [val_main_v78_apply, val_main_c_20_apply]
  have h72 : val_main_v72 (F := Ideal) (ix1 n) = BitVec.ofNat 32 n.val := rfl
  rw [val_main_v82_apply, val_main_v79_apply, h72, h78, slt_zero_word, select_zero]

/-- Column 0 of the start indices holds the first wrapped index. -/
theorem v85_col0 (n : Fin 64) : val_main_v85 (F := Ideal) (ix2 n (0 : Fin 2)) = BitVec.ofNat 32 n.val := by
  unfold val_main_v85
  refine (concatenate_pair_apply_left _ _ _ concatenates_S64x1_S64x1_S64x2_d1 (ix2 n (0 : Fin 2)) rfl
    (ix2 n (0 : Fin 1)) ?_).trans ?_
  · intro b; match b with | ⟨0, _⟩ => rfl | ⟨1, _⟩ => rfl
  · rw [val_main_v83_apply]
    have e : idx_main_v83 (ix2 n (0 : Fin 1)) = ix1 n := by
      funext a; match a with | ⟨0, _⟩ => rfl
    rw [e, v77_row]

/-- Column 1 of the start indices holds the second wrapped index. -/
theorem v85_col1 (n : Fin 64) : val_main_v85 (F := Ideal) (ix2 n (1 : Fin 2)) = BitVec.ofNat 32 n.val := by
  unfold val_main_v85
  refine (concatenate_pair_apply_right _ _ _ concatenates_S64x1_S64x1_S64x2_d1 (ix2 n (1 : Fin 2)) rfl rfl
    (ix2 n (0 : Fin 1)) ?_ ?_).trans ?_
  · intro b hb
    match b, hb with
    | ⟨0, _⟩, _ => rfl
    | ⟨1, _⟩, hb => exact absurd rfl hb
  · rfl
  · rw [val_main_v84_apply]
    have e : idx_main_v84 (ix2 n (0 : Fin 1)) = ix1 n := by
      funext a; match a with | ⟨0, _⟩ => rfl
    rw [e, v82_row]

/-- The gather's dimension numbers. -/
abbrev gd : GatherDims S64x128 S64x2 S64 := gather_S64x128_S64x2_S64_n_01_n_n_01_1_11

/-- The slice start on the row axis: the start index's first component, read signed and clamped into `[0, 63]`. -/
theorem start0 (idx : IVec S64x2 32) (n : Fin 64) :
    gd.start (ix1 n) idx (0 : Fin 2) = min (idx (ix2 n (0 : Fin 2))).toInt.toNat 63 := by
  unfold GatherDims.start
  rw [dif_pos (show (0 : Fin 2) ∈ gd.startIndexMap by decide)]
  have hsi : gd.siIdx (ix1 n) ⟨List.idxOf (0 : Fin 2) gd.startIndexMap,
      List.idxOf_lt_length_iff.2 (show (0 : Fin 2) ∈ gd.startIndexMap by decide)⟩ = ix2 n (0 : Fin 2) := by
    funext b; refine Fin.ext ?_
    match b with
    | ⟨0, _⟩ => rfl
    | ⟨1, _⟩ => rfl
  rw [hsi]
  rfl

/-- The slice start on the column axis: the second component, clamped into `[0, 127]`. -/
theorem start1 (idx : IVec S64x2 32) (n : Fin 64) :
    gd.start (ix1 n) idx (1 : Fin 2) = min (idx (ix2 n (1 : Fin 2))).toInt.toNat 127 := by
  unfold GatherDims.start
  rw [dif_pos (show (1 : Fin 2) ∈ gd.startIndexMap by decide)]
  have hsi : gd.siIdx (ix1 n) ⟨List.idxOf (1 : Fin 2) gd.startIndexMap,
      List.idxOf_lt_length_iff.2 (show (1 : Fin 2) ∈ gd.startIndexMap by decide)⟩ = ix2 n (1 : Fin 2) := by
    funext b; refine Fin.ext ?_
    match b with
    | ⟨0, _⟩ => rfl
    | ⟨1, _⟩ => rfl
  rw [hsi]
  rfl

variable (x0 : (⟨S64x256x1024, .f32⟩ : BufTy).Contents (Elt Ideal)) (x1 : (⟨S128x1024, .f32⟩ : BufTy).Contents (Elt Ideal)) (x2 : (⟨S64x256, .i32⟩ : BufTy).Contents (Elt Ideal))

/-- The gathered entry at `n` is the log-softmax at `(n, n)`: both start components are `n`, inside the table. -/
theorem v86_row (n : Fin 64) :
    val_main_v86 (F := Ideal) x0 x1 x2 (ix1 n) = val_main_v70 (F := Ideal) x0 x1 x2 (ix2 n (col n)) := by
  unfold val_main_v86 Host.gather
  generalize val_main_v70 (F := Ideal) x0 x1 x2 = y
  refine congrArg y ?_
  funext a
  refine Fin.ext ?_
  match a with
  | ⟨0, _⟩ =>
    show gd.start (ix1 n) (val_main_v85 (F := Ideal)) (0 : Fin 2) + gd.batchCoord (ix1 n) (0 : Fin 2)
      + gd.offCoord (ix1 n) (0 : Fin 2) = n.val
    rw [GatherDims.batchCoord_eq_zero _ _ _ List.not_mem_nil,
      GatherDims.offCoord_eq_zero _ _ _ (fun h => ((GatherDims.mem_sKept _ _).mp h).1 (by decide)),
      start0, v85_col0, toInt_word]
    have := n.isLt; omega
  | ⟨1, _⟩ =>
    show gd.start (ix1 n) (val_main_v85 (F := Ideal)) (1 : Fin 2) + gd.batchCoord (ix1 n) (1 : Fin 2)
      + gd.offCoord (ix1 n) (1 : Fin 2) = n.val
    rw [GatherDims.batchCoord_eq_zero _ _ _ List.not_mem_nil,
      GatherDims.offCoord_eq_zero _ _ _ (fun h => ((GatherDims.mem_sKept _ _).mp h).1 (by decide)),
      start1, v85_col1, toInt_word]
    have := n.isLt; omega

end gather

end RefTail

/-- The reference's tail: minus the mean over the 64 rows of the log-softmax of the scores at the row's own column. -/
theorem ref_tail (x0 : (⟨S64x256x1024, .f32⟩ : BufTy).Contents (Elt Ideal)) (x1 : (⟨S128x1024, .f32⟩ : BufTy).Contents (Elt Ideal)) (x2 : (⟨S64x256, .i32⟩ : BufTy).Contents (Elt Ideal)) (i : Cert.ReferenceIdeal.S_.Idx) :
    Cert.ReferenceIdeal.ReadP.val_main_v89 (F := Ideal) x0 x1 x2 i
      = loss (fun n => logp (fun m => Cert.ReferenceIdeal.ReadP.val_main_v69 (F := Ideal) x0 x1 x2 (ix2 n m)) (col n)) := by
  rw [val_main_v89_apply, val_main_v88_apply, val_main_v87_apply, val_main_cst_22_apply, val_main_cst_23_apply]
  show -(Ideal.div (Ideal.ofBits .f32 0x00000000#32 + ∑ j : S64.Idx, val_main_v86 (F := Ideal) x0 x1 x2 j) c64) = _
  rw [Ideal.ofBits_zero_f32, zero_add, Cert.LibIdxSums.sum_idx1]
  unfold loss
  refine congrArg (fun s => -(Ideal.div s c64)) (Finset.sum_congr rfl fun n _ => ?_)
  rw [RefTail.v86_row, RefTail.v70_apply]

end Cert.Energy

end
-- ==== Proof.Algebra.lean ====
/-
  The two arrangements of the score agree when the points and the weights are real numbers.

  Both scores are `−20 · (2 · cross − self)`: `(0 − A) · 20 = (A · 20) · (−1)` holds for every extended real `A`.
  The self term is a quotient whose numerator is written either row by row,
  `∑ i, (∑ j, d i j · μ j) · μ i`, or as one double sum `∑ i, ∑ j, d i j · (μ i · μ j)`, and whose denominator is
  `max 1 (w · w)` with `w = ∑ μ` or `max 1 (∑ i, ∑ j, μ i · μ j)`. Each pair is equal by distributivity of the product
  over finite sums. On the extended reals that needs real terms: a distance between two real points is a real number
  (sums and products of reals, a clamp at zero, a square root of a non-negative real, a bit as a number), so the sums
  are images of real sums and the identities are checked on the real numbers.
-/
import proofs.«119069_j71021579206985_2_alg».proof.Proof.Spec
import Mathlib

noncomputable section

namespace Cert.Energy

open Idealize.ShloMosaic

/-! ### The literals -/

theorem c0_eq : c0 = 0 := Ideal.ofBits_zero_f32

theorem c1_eq : c1 = 1 := by
  simp [c1, Ideal.ofBits, Ideal.ieee, -EReal.coe_mul] <;> norm_num

theorem cneg1_eq : cneg1 = -1 := by
  simp [cneg1, Ideal.ofBits, Ideal.ieee, -EReal.coe_mul] <;> norm_num

theorem c2_real : ∃ r : ℝ, c2 = (r : EReal) := by
  simp [c2, Ideal.ofBits, Ideal.ieee, -EReal.coe_mul]

/-- The two spellings of the sign: `(0 − A) · 20 = (A · 20) · (−1)` for every extended real `A`. -/
theorem sign_eq (A : EReal) : (c0 - A) * c20 = (A * c20) * cneg1 := by
  rw [c0_eq, cneg1_eq, zero_sub, neg_mul, mul_neg, mul_one]

/-! ### Finite sums of real numbers, over any finite index type -/

section sums
variable {ι : Type}

/-- The image of a finite real sum is the sum of the images. -/
theorem coe_sum (s : Finset ι) (f : ι → ℝ) : ((∑ k ∈ s, f k : ℝ) : EReal) = ∑ k ∈ s, (f k : EReal) := by
  classical
  induction s using Finset.induction_on with
  | empty => simp
  | insert k s hk ih => rw [Finset.sum_insert hk, Finset.sum_insert hk, EReal.coe_add, ih]

variable [Fintype ι]

/-- A finite sum of products of real numbers is a real number. -/
theorem sum_mul_real (f g : ι → EReal) (hf : ∀ k, ∃ r : ℝ, f k = (r : EReal)) (hg : ∀ k, ∃ r : ℝ, g k = (r : EReal)) :
    ∃ r : ℝ, (∑ k, f k * g k) = (r : EReal) := by
  choose a ha using hf
  choose b hb using hg
  refine ⟨∑ k, a k * b k, ?_⟩
  rw [coe_sum]
  exact Finset.sum_congr rfl fun k _ => by rw [ha, hb, EReal.coe_mul]

/-- The weighted sum of a real table, row by row with the row's weight taken out, or against the products of weights. -/
theorem num_eq (D : ι → ι → EReal) (hD : ∀ i j, ∃ r : ℝ, D i j = (r : EReal)) (μ : ι → EReal)
    (hμ : ∀ l, ∃ r : ℝ, μ l = (r : EReal)) :
    (∑ i, (∑ j, D i j * μ j) * μ i) = ∑ i, ∑ j, D i j * (μ i * μ j) := by
  choose δ hδ using hD
  choose m hm using hμ
  have hK : ∀ i, (∑ j, D i j * μ j) * μ i = ((∑ j, δ i j * (m i * m j) : ℝ) : EReal) := by
    intro i
    have h1 : (∑ j, D i j * μ j) = ((∑ j, δ i j * m j : ℝ) : EReal) := by
      rw [coe_sum]
      exact Finset.sum_congr rfl fun j _ => by rw [hδ, hm, EReal.coe_mul]
    rw [h1, hm, ← EReal.coe_mul, Finset.sum_mul]
    exact congrArg Real.toEReal (Finset.sum_congr rfl fun j _ => by ring)
  refine Finset.sum_congr rfl fun i _ => ?_
  rw [hK, coe_sum]
  exact Finset.sum_congr rfl fun j _ => by rw [hδ, hm, hm, EReal.coe_mul, EReal.coe_mul]

/-- The square of the total weight is the double sum of the products of weights. -/
theorem den_eq (μ : ι → EReal) (hμ : ∀ l, ∃ r : ℝ, μ l = (r : EReal)) :
    (∑ l, μ l) * (∑ l, μ l) = ∑ i, ∑ j, μ i * μ j := by
  choose m hm using hμ
  have h1 : (∑ l, μ l) = ((∑ l, m l : ℝ) : EReal) := by
    rw [coe_sum]
    exact Finset.sum_congr rfl fun l _ => hm l
  rw [h1, ← EReal.coe_mul, Finset.sum_mul_sum, coe_sum]
  refine Finset.sum_congr rfl fun i _ => ?_
  rw [coe_sum]
  exact Finset.sum_congr rfl fun j _ => by rw [hm, hm, EReal.coe_mul]

end sums

/-! ### A distance between real points is a real number -/

theorem dist_real (u : EReal) (hu : ∃ r : ℝ, u = (r : EReal)) : ∃ r : ℝ, dist u = (r : EReal) := by
  obtain ⟨r, rfl⟩ := hu
  have hm : max (r : EReal) c0 = ((max r 0 : ℝ) : EReal) := by
    rw [c0_eq, ← EReal.coe_zero]
    exact (EReal.coe_strictMono.monotone.map_max).symm
  unfold dist
  rw [hm]
  generalize pos ((max r 0 : ℝ) : EReal) = b
  have hs : ∃ s : ℝ, Ideal.sqrt (Scalar.select b ((max r 0 : ℝ) : EReal) c1) = (s : EReal) := by
    unfold Scalar.select
    split_ifs
    · refine ⟨Real.sqrt (max r 0), ?_⟩
      rw [Ideal.sqrt_coe, if_neg (not_lt.mpr (le_max_right _ _))]
    · refine ⟨Real.sqrt 1, ?_⟩
      rw [c1_eq, ← EReal.coe_one, Ideal.sqrt_coe, if_neg (by norm_num)]
  obtain ⟨s, hs⟩ := hs
  exact ⟨s * (b.toNat : ℝ), by rw [hs, ind, EReal.coe_mul]⟩

theorem d1_real (x : Fin 256 → Fin 1024 → EReal) (hx : ∀ l d, ∃ r : ℝ, x l d = (r : EReal)) (i j : Fin 256) :
    ∃ r : ℝ, d1 x i j = (r : EReal) := by
  obtain ⟨k, hk⟩ := c2_real
  obtain ⟨p, hp⟩ := sum_mul_real (x i) (x i) (hx i) (hx i)
  obtain ⟨q, hq⟩ := sum_mul_real (x j) (x j) (hx j) (hx j)
  obtain ⟨g, hg⟩ := sum_mul_real (x i) (x j) (hx i) (hx j)
  unfold d1 sqx gxx
  refine dist_real _ ⟨p + q - k * g, ?_⟩
  rw [hp, hq, hg, hk, EReal.coe_sub, EReal.coe_add, EReal.coe_mul]

/-! ### The two arrangements of the self term, and of the score -/

theorem edqK_eq_edqR (x : Fin 256 → Fin 1024 → EReal) (μ : Fin 256 → EReal)
    (hx : ∀ l d, ∃ r : ℝ, x l d = (r : EReal)) (hμ : ∀ l, ∃ r : ℝ, μ l = (r : EReal)) : edqK x μ = edqR x μ := by
  unfold edqK edqR rv
  rw [num_eq (d1 x) (d1_real x hx) μ hμ, den_eq μ hμ]

/-- The score in its two spellings. -/
theorem scoreK_eq_scoreR (x : Fin 256 → Fin 1024 → EReal) (y : Fin 128 → Fin 1024 → EReal) (μ : Fin 256 → EReal)
    (hx : ∀ l d, ∃ r : ℝ, x l d = (r : EReal)) (hμ : ∀ l, ∃ r : ℝ, μ l = (r : EReal)) : scoreK x y μ = scoreR x y μ := by
  funext m
  unfold scoreK scoreR
  rw [edqK_eq_edqR x μ hx hμ]
  exact sign_eq _

end Cert.Energy

end
-- ==== Proof.RefValue.lean ====
/-
  The reference's result on the extended reals, as a function of the three argument arrays: minus the mean over the 64
  rows of the row's log-probability of its own column, the scores in the reference's arrangement; and, for real points and
  weights, each row's value in the two arrangements is the same (the pair weights factor out of the inner sum, and the
  sum of the pair weights is the square of the total weight).
-/
import proofs.«119069_j71021579206985_2_alg».proof.Proof.RefScores
import proofs.«119069_j71021579206985_2_alg».proof.Proof.RefTail
import proofs.«119069_j71021579206985_2_alg».proof.Proof.Rows
import proofs.«119069_j71021579206985_2_alg».proof.Proof.Algebra

noncomputable section

namespace Cert.Energy

open Idealize.ShloMosaic Idealize.ShloMosaic.ValueIdx

/-- The reference's result. -/
theorem ref_value (x0 : (⟨Cert.ReferenceIdeal.S64x256x1024, .f32⟩ : BufTy).Contents (Elt Ideal))
    (x1 : (⟨Cert.ReferenceIdeal.S128x1024, .f32⟩ : BufTy).Contents (Elt Ideal))
    (x2 : (⟨Cert.ReferenceIdeal.S64x256, .i32⟩ : BufTy).Contents (Elt Ideal)) (i : Cert.ReferenceIdeal.S_.Idx) :
    Cert.ReferenceIdeal.ReadP.val_main_v89 (F := Ideal) x0 x1 x2 i
      = loss (Drow scoreR x0 x1 (sitofp .f32 x2 : FVec Ideal Cert.ReferenceIdeal.S64x256 .f32)) := by
  rw [ref_tail]
  refine congrArg loss (funext fun n => ?_)
  show logp _ (col n) = logp _ (col n)
  refine congrArg (fun s => logp s (col n)) (funext fun m => ?_)
  exact RefScores.ref_scores x0 x1 x2 n m

/-- For real points and weights a row's value does not depend on the arrangement. -/
theorem Drow_K_eq_R (X : (⟨3, ![64, 256, 1024]⟩ : Shape).Idx → EReal) (Y : (⟨2, ![128, 1024]⟩ : Shape).Idx → EReal)
    (Mf : (⟨2, ![64, 256]⟩ : Shape).Idx → EReal) (hX : ∀ i, ∃ r : ℝ, X i = (r : EReal)) (hM : ∀ i, ∃ r : ℝ, Mf i = (r : EReal))
    (n : Fin 64) : Drow scoreK X Y Mf n = Drow scoreR X Y Mf n := by
  unfold Drow
  rw [scoreK_eq_scoreR _ _ _ (fun l d => hX _) (fun l => hM _)]

end Cert.Energy

end
-- ==== Proof.LibFinite.lean ====
/-
  Finite inputs as real numbers. A precondition "every entry's magnitude is below plus infinity", read on the extended
  reals, says every entry is a real number: the one-operand reduction by `and` of the entrywise comparisons is 1 exactly
  when each comparison is, and an extended real whose magnitude is below the top element is neither infinity. Also: a
  finite sum of products of real entries is a real number.
-/
import Idealize.ShloMosaic.Lib.ReduceAll
import Idealize.ShloMosaic.Lib.ValueIdx
import Idealize.ShloMosaic.PureOps.Ideal.Laws

namespace Cert.LibFinite

open Idealize.ShloMosaic

/-- An extended real whose magnitude compares below the pattern of plus infinity is a real number. -/
theorem real_of_abs_lt (x : EReal) (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  unfold Ideal.cmp at h
  have hlt : max x (-x) < ⊤ := by
    by_contra hc
    simp only [hc, decide_false] at h
    exact absurd h (by decide)
  induction x using EReal.rec with
  | bot => simp at hlt
  | coe r => exact ⟨r, rfl⟩
  | top => simp at hlt

instance : Subsingleton (⟨0, ![]⟩ : Shape).Idx := ⟨fun a b => funext fun d => d.elim0⟩

/-- `jnp.all (abs x < inf)` equal to 1 gives every entry real. -/
theorem all_real {s : Shape} {axes : List (Fin s.rank)} (x : FVec Ideal s .f32)
    (bc : (⟨0, ![]⟩ : Shape).BroadcastsInDim s (![] : Fin 0 → Fin s.rank)) (hr : s.ReducesTo axes ⟨0, ![]⟩) (hu : 0 < (⟨0, ![]⟩ : Shape).numel)
    (e : Host.reduce IntOp.andi (cmpf .olt (Host.absf x) (broadcastInDim s ![] bc (constant (⟨0, ![]⟩ : Shape) .f32 0x7F800000#32)))
          (constantI (⟨0, ![]⟩ : Shape) 1 1#1) hr hu ValueIdx.ix0 = 1#1) (i : s.Idx) : ∃ r : ℝ, x i = (r : EReal) := by
  have h := Host.reduce_andi_all _ _ hr hu ValueIdx.ix0 e i
  exact real_of_abs_lt (x i) h

/-- A finite sum of products of real entries is a real number. -/
theorem sum_mul_real {ι : Type} [Fintype ι] (f g : ι → EReal) (hf : ∀ k, ∃ r : ℝ, f k = (r : EReal)) (hg : ∀ k, ∃ r : ℝ, g k = (r : EReal)) :
    ∃ r : ℝ, (∑ k, f k * g k) = (r : EReal) := by
  choose a ha using hf
  choose b hb using hg
  refine ⟨∑ k, a k * b k, ?_⟩
  have : ∀ s : Finset ι, (∑ k ∈ s, f k * g k) = ((∑ k ∈ s, a k * b k : ℝ) : EReal) := by
    intro s
    classical
    induction s using Finset.induction_on with
    | empty => simp
    | insert k s hk ih => rw [Finset.sum_insert hk, Finset.sum_insert hk, ih, ha, hb, EReal.coe_add, EReal.coe_mul]
  exact this Finset.univ

end Cert.LibFinite
-- ==== Proof.Finite.lean ====
/-
  The precondition "every entry of both float inputs has magnitude below plus infinity" makes every entry of the
  first input a real number: the precondition is the conjunction of two reductions by `and` of entrywise comparisons;
  its first conjunct equal to 1 says each comparison `|x| < +∞` holds, and an extended real with magnitude below the
  top element is a real number.
-/
import proofs.«119069_j71021579206985_2_alg».proof.Pre_finite_inputs
import proofs.«119069_j71021579206985_2_alg».proof.Proof.LibFinite
import Idealize.ShloMosaic.Lib.ReduceAll
import Idealize.ShloMosaic.Lib.Affine

namespace Cert.Energy

open Idealize.ShloMosaic

/-- Under the precondition every entry of the first input is a real number. -/
theorem x_real [Cert.Pre_finite_inputs.Facts] (a0 : FVec Ideal Cert.Pre_finite_inputs.S64x256x1024 .f32)
    (a1 : FVec Ideal Cert.Pre_finite_inputs.S128x1024 .f32) (a2 : IVec Cert.Pre_finite_inputs.S64x256 32)
    (h : Cert.Pre_finite_inputs.fn (F := Ideal) a0 a1 a2 = fun _ => 1#1) : ∀ i, ∃ r : ℝ, a0 i = (r : EReal) := by
  intro i
  have h0 := congrFun h ValueIdx.ix0
  dsimp only [Cert.Pre_finite_inputs.fn, andi] at h0
  exact Cert.LibFinite.all_real a0 _ _ _ (IntOp.andi_eq_one.1 h0).1 i

end Cert.Energy
-- ==== Proof.lean ====
/-
  The five claims about the energy-distance loss kernel and its reference.

  Both programs compute, for each of 64 batch rows, the weighted energy distance from the row's 256 points to each of 128
  reference points, turn the distances into scores −20·(2·cross − self), take the log-softmax of the scores over the
  reference points, pick the entry of the row's own number, and return minus the mean of the 64 picked entries. The kernel
  works on eight rows per grid point and sums the weighted pairwise distances row by row, taking each row's weight out
  of the inner sum; the reference sums against the product of the two weights. For finite points the two sums agree
  (distributivity over real terms), and the two programs end with equal results on the extended reals.

  The frames of the two kernel programs are their generated frame certificates, through copies in which the stored value's
  dependence on the grid coordinate is bound; the reference's frame is its run with the result dropped. The ideal pass
  rewrote nothing, so `preserves` is trivial.
-/
import proofs.«119069_j71021579206985_2_alg».proof.Defs
import proofs.«119069_j71021579206985_2_alg».proof.Proof.Gen.Kernel
import proofs.«119069_j71021579206985_2_alg».proof.Proof.Gen.KernelIdeal
import proofs.«119069_j71021579206985_2_alg».proof.Proof.Gen.ReferenceIdeal
import proofs.«119069_j71021579206985_2_alg».proof.Proof.Gen.Pre_finite_inputs
import proofs.«119069_j71021579206985_2_alg».proof.Proof.KernelFrameP
import proofs.«119069_j71021579206985_2_alg».proof.Proof.KernelIdealFrameP
import proofs.«119069_j71021579206985_2_alg».proof.Proof.RefRunP
import proofs.«119069_j71021579206985_2_alg».proof.Proof.RefReadP
import proofs.«119069_j71021579206985_2_alg».proof.Proof.KFinal
import proofs.«119069_j71021579206985_2_alg».proof.Proof.RefValue
import proofs.«119069_j71021579206985_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end at minus the mean of the rows' log-probabilities of their own
    columns; the two arrangements of the self term agree because the points are finite and the weights are integers. -/
theorem algebraic : Cert.algebraic_KernelIdeal_ReferenceIdeal := by
  intro m ρ m' ρ' hpre hagree
  refine ⟨fun c => fun _ => Cert.Energy.loss (Cert.Energy.Drow Cert.Energy.scoreK (Cert.KernelIdeal.Hand.Xa m c) (Cert.KernelIdeal.Hand.Ya m c) (Cert.KernelIdeal.Hand.Ma m c)),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v89_eq, (hagree c).1, (hagree c).2.1, (hagree c).2.2]
  funext i
  rw [Cert.Energy.ref_value]
  show Cert.Energy.loss _ = Cert.Energy.loss _
  refine congrArg Cert.Energy.loss (funext fun n => ?_)
  exact (Cert.Energy.Drow_K_eq_R _ _ _ (Cert.Energy.x_real _ _ _ (hpre c)) (fun j => ⟨_, rfl⟩) n).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
